-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x25 : Shape := ⟨2, ![50000, 25]⟩
abbrev S25x64 : Shape := ⟨2, ![25, 64]⟩
abbrev S128x3 : Shape := ⟨2, ![128, 3]⟩
abbrev S256x3 : Shape := ⟨2, ![256, 3]⟩
abbrev S448x2 : Shape := ⟨2, ![448, 2]⟩
abbrev S2 : Shape := ⟨1, ![2]⟩
abbrev S3x50000x32 : Shape := ⟨3, ![3, 50000, 32]⟩
abbrev S1024 : Shape := ⟨1, ![1024]⟩
abbrev S_ : Shape := ⟨0, ![]⟩

class Facts : Prop where
  bcast_S_S50000x25 : S_.BroadcastsInDim S50000x25 (![] : Fin 0 → Fin S50000x25.rank)
  reducesTo_S50000x25_S_d0_1 : S50000x25.ReducesTo [0, 1] S_
  h_S_ : 0 < S_.numel
  bcast_S_S25x64 : S_.BroadcastsInDim S25x64 (![] : Fin 0 → Fin S25x64.rank)
  reducesTo_S25x64_S_d0_1 : S25x64.ReducesTo [0, 1] S_
  bcast_S_S128x3 : S_.BroadcastsInDim S128x3 (![] : Fin 0 → Fin S128x3.rank)
  reducesTo_S128x3_S_d0_1 : S128x3.ReducesTo [0, 1] S_
  bcast_S_S256x3 : S_.BroadcastsInDim S256x3 (![] : Fin 0 → Fin S256x3.rank)
  reducesTo_S256x3_S_d0_1 : S256x3.ReducesTo [0, 1] S_
  bcast_S_S448x2 : S_.BroadcastsInDim S448x2 (![] : Fin 0 → Fin S448x2.rank)
  reducesTo_S448x2_S_d0_1 : S448x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S448x2 .f32) (main_arg5 : FVec F S2 .f32) (main_v13 : IVec S_ 1) (main_v16 : IVec S256x3 1) : IVec S_ 1 :=
  let main_c_5 : IVec S_ 1 := constantI S_ 1 1#1
  let main_v17 : IVec S_ 1 := (fun x v => Host.reduce IntOp.andi x v reducesTo_S256x3_S_d0_1 h_S_) main_v16 main_c_5
  let main_v18 : IVec S_ 1 := andi main_v13 main_v17
  let main_v19 : FVec F S448x2 .f32 := Host.absf main_arg4
  let main_cst_6 : FVec F S_ .f32 := constant S_ .f32 0x7F800000#32
  let main_v20 : FVec F S448x2 .f32 := broadcastInDim S448x2 ![] bcast_S_S448x2 main_cst_6
  let main_v21 : IVec S448x2 1 := cmpf .olt main_v19 main_v20
  let main_c_7 : IVec S_ 1 := constantI S_ 1 1#1
  let main_v22 : IVec S_ 1 := (fun x v => Host.reduce IntOp.andi x v reducesTo_S448x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S50000x25 .f32) (main_arg1 : FVec F S25x64 .f32) (main_arg2 : FVec F S128x3 .f32) (main_arg3 : FVec F S256x3 .f32) (main_arg4 : FVec F S448x2 .f32) (main_arg5 : FVec F S2 .f32) (main_arg6 : IVec S3x50000x32 32) (main_arg7 : IVec S1024 32) : IVec S_ 1 :=
  let main_v0 : FVec F S50000x25 .f32 := Host.absf main_arg0
  let main_cst : FVec F S_ .f32 := constant S_ .f32 0x7F800000#32
  let main_v1 : FVec F S50000x25 .f32 := broadcastInDim S50000x25 ![] bcast_S_S50000x25 main_cst
  let main_v2 : IVec S50000x25 1 := cmpf .olt main_v0 main_v1
  let main_c : IVec S_ 1 := constantI S_ 1 1#1
  let main_v3 : IVec S_ 1 := (fun x v => Host.reduce IntOp.andi x v reducesTo_S50000x25_S_d0_1 h_S_) main_v2 main_c
  let main_v4 : FVec F S25x64 .f32 := Host.absf main_arg1
  let main_cst_0 : FVec F S_ .f32 := constant S_ .f32 0x7F800000#32
  let main_v5 : FVec F S25x64 .f32 := broadcastInDim S25x64 ![] bcast_S_S25x64 main_cst_0
  let main_v6 : IVec S25x64 1 := cmpf .olt main_v4 main_v5
  let main_c_1 : IVec S_ 1 := constantI S_ 1 1#1
  let main_v7 : IVec S_ 1 := (fun x v => Host.reduce IntOp.andi x v reducesTo_S25x64_S_d0_1 h_S_) main_v6 main_c_1
  let main_v8 : IVec S_ 1 := andi main_v3 main_v7
  let main_v9 : FVec F S128x3 .f32 := Host.absf main_arg2
  let main_cst_2 : FVec F S_ .f32 := constant S_ .f32 0x7F800000#32
  let main_v10 : FVec F S128x3 .f32 := broadcastInDim S128x3 ![] bcast_S_S128x3 main_cst_2
  let main_v11 : IVec S128x3 1 := cmpf .olt main_v9 main_v10
  let main_c_3 : IVec S_ 1 := constantI S_ 1 1#1
  let main_v12 : IVec S_ 1 := (fun x v => Host.reduce IntOp.andi x v reducesTo_S128x3_S_d0_1 h_S_) main_v11 main_c_3
  let main_v13 : IVec S_ 1 := andi main_v8 main_v12
  let main_v14 : FVec F S256x3 .f32 := Host.absf main_arg3
  let main_cst_4 : FVec F S_ .f32 := constant S_ .f32 0x7F800000#32
  let main_v15 : FVec F S256x3 .f32 := broadcastInDim S256x3 ![] bcast_S_S256x3 main_cst_4
  let main_v16 : IVec S256x3 1 := cmpf .olt main_v14 main_v15
  fn_part1 (F := F) main_arg4 main_arg5 main_v13 main_v16
-- ==== Kernel.lean ====
abbrev S50000x25 : Shape := ⟨2, ![50000, 25]⟩
abbrev S25x64 : Shape := ⟨2, ![25, 64]⟩
abbrev S128x3 : Shape := ⟨2, ![128, 3]⟩
abbrev S256x3 : Shape := ⟨2, ![256, 3]⟩
abbrev S448x2 : Shape := ⟨2, ![448, 2]⟩
abbrev S2 : Shape := ⟨1, ![2]⟩
abbrev S3x50000x32 : Shape := ⟨3, ![3, 50000, 32]⟩
abbrev S1024 : Shape := ⟨1, ![1024]⟩
abbrev S50000x64 : Shape := ⟨2, ![50000, 64]⟩
abbrev S10000x25 : Shape := ⟨2, ![10000, 25]⟩
abbrev S10000x64 : Shape := ⟨2, ![10000, 64]⟩
abbrev S1x50000x32 : Shape := ⟨3, ![1, 50000, 32]⟩
abbrev S50000x32 : Shape := ⟨2, ![50000, 32]⟩
abbrev S_ : Shape := ⟨0, ![]⟩
abbrev S50000x32x1 : Shape := ⟨3, ![50000, 32, 1]⟩
abbrev S50000x32x64 : Shape := ⟨3, ![50000, 32, 64]⟩
abbrev S50000x192 : Shape := ⟨2, ![50000, 192]⟩
abbrev S5000x64 : Shape := ⟨2, ![5000, 64]⟩
abbrev S5000x192 : Shape := ⟨2, ![5000, 192]⟩
abbrev S128 : Shape := ⟨1, ![128]⟩
abbrev S128x1 : Shape := ⟨2, ![128, 1]⟩
abbrev S5000x128 : Shape := ⟨2, ![5000, 128]⟩
abbrev S1x128 : Shape := ⟨2, ![1, 128]⟩
abbrev S1024x1 : Shape := ⟨2, ![1024, 1]⟩
abbrev S1024x192 : Shape := ⟨2, ![1024, 192]⟩
abbrev S50000x128 : Shape := ⟨2, ![50000, 128]⟩
abbrev S1024x128 : Shape := ⟨2, ![1024, 128]⟩
abbrev S1024x32 : Shape := ⟨2, ![1024, 32]⟩
abbrev S1024x32x1 : Shape := ⟨3, ![1024, 32, 1]⟩
abbrev S1024x32x128 : Shape := ⟨3, ![1024, 32, 128]⟩
abbrev S1024x2 : Shape := ⟨2, ![1024, 2]⟩
abbrev S256x128 : Shape := ⟨2, ![256, 128]⟩
abbrev S256x192 : Shape := ⟨2, ![256, 192]⟩
abbrev S256x2 : Shape := ⟨2, ![256, 2]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S256x448 : Shape := ⟨2, ![256, 448]⟩
abbrev S1x2 : Shape := ⟨2, ![1, 2]⟩

abbrev nBuf : Space → Nat
  | .hbm => 145
  | .vmem => 31
  | .smem => 0
  | _ => 0

abbrev hbmTy0_0 (i : Nat) : BufTy := match i % 128 with
  | 0 => ⟨S50000x25, .f32⟩
  | 1 => ⟨S25x64, .f32⟩
  | 2 => ⟨S128x3, .f32⟩
  | 3 => ⟨S256x3, .f32⟩
  | 4 => ⟨S448x2, .f32⟩
  | 5 => ⟨S2, .f32⟩
  | 6 => ⟨S3x50000x32, .i32⟩
  | 7 => ⟨S1024, .i32⟩
  | 8 => ⟨S50000x64, .f32⟩
  | 9 => ⟨S1x50000x32, .i32⟩
  | 10 => ⟨S50000x32, .i32⟩
  | 11 => ⟨S_, .i32⟩
  | 12 => ⟨S50000x32, .i32⟩
  | 13 => ⟨S50000x32, .i1⟩
  | 14 => ⟨S_, .i32⟩
  | 15 => ⟨S50000x32, .i32⟩
  | 16 => ⟨S50000x32, .i32⟩
  | 17 => ⟨S50000x32, .i32⟩
  | 18 => ⟨S50000x32x1, .i32⟩
  | 19 => ⟨S50000x32x64, .f32⟩
  | 20 => ⟨S_, .f32⟩
  | 21 => ⟨S50000x64, .f32⟩
  | 22 => ⟨S_, .f32⟩
  | 23 => ⟨S50000x64, .f32⟩
  | 24 => ⟨S50000x64, .f32⟩
  | 25 => ⟨S1x50000x32, .i32⟩
  | 26 => ⟨S50000x32, .i32⟩
  | 27 => ⟨S_, .i32⟩
  | 28 => ⟨S50000x32, .i32⟩
  | 29 => ⟨S50000x32, .i1⟩
  | 30 => ⟨S_, .i32⟩
  | 31 => ⟨S50000x32, .i32⟩
  | 32 => ⟨S50000x32, .i32⟩
  | 33 => ⟨S50000x32, .i32⟩
  | 34 => ⟨S50000x32x1, .i32⟩
  | 35 => ⟨S50000x32x64, .f32⟩
  | 36 => ⟨S_, .f32⟩
  | 37 => ⟨S50000x64, .f32⟩
  | 38 => ⟨S_, .f32⟩
  | 39 => ⟨S50000x64, .f32⟩
  | 40 => ⟨S50000x64, .f32⟩
  | 41 => ⟨S1x50000x32, .i32⟩
  | 42 => ⟨S50000x32, .i32⟩
  | 43 => ⟨S_, .i32⟩
  | 44 => ⟨S50000x32, .i32⟩
  | 45 => ⟨S50000x32, .i1⟩
  | 46 => ⟨S_, .i32⟩
  | 47 => ⟨S50000x32, .i32⟩
  | 48 => ⟨S50000x32, .i32⟩
  | 49 => ⟨S50000x32, .i32⟩
  | 50 => ⟨S50000x32x1, .i32⟩
  | 51 => ⟨S50000x32x64, .f32⟩
  | 52 => ⟨S_, .f32⟩
  | 53 => ⟨S50000x64, .f32⟩
  | 54 => ⟨S_, .f32⟩
  | 55 => ⟨S50000x64, .f32⟩
  | 56 => ⟨S50000x64, .f32⟩
  | 57 => ⟨S50000x192, .f32⟩
  | 58 => ⟨S_, .i32⟩
  | 59 => ⟨S1024, .i32⟩
  | 60 => ⟨S1024, .i1⟩
  | 61 => ⟨S_, .i32⟩
  | 62 => ⟨S1024, .i32⟩
  | 63 => ⟨S1024, .i32⟩
  | 64 => ⟨S1024, .i32⟩
  | 65 => ⟨S1024x1, .i32⟩
  | 66 => ⟨S1024x192, .f32⟩
  | 67 => ⟨S50000x128, .f32⟩
  | 68 => ⟨S1024x128, .f32⟩
  | 69 => ⟨S1x50000x32, .i32⟩
  | 70 => ⟨S50000x32, .i32⟩
  | 71 => ⟨S_, .i32⟩
  | 72 => ⟨S1024, .i32⟩
  | 73 => ⟨S1024, .i1⟩
  | 74 => ⟨S_, .i32⟩
  | 75 => ⟨S1024, .i32⟩
  | 76 => ⟨S1024, .i32⟩
  | 77 => ⟨S1024, .i32⟩
  | 78 => ⟨S1024x1, .i32⟩
  | 79 => ⟨S1024x32, .i32⟩
  | 80 => ⟨S_, .i32⟩
  | 81 => ⟨S1024x32, .i32⟩
  | 82 => ⟨S1024x32, .i1⟩
  | 83 => ⟨S_, .i32⟩
  | 84 => ⟨S1024x32, .i32⟩
  | 85 => ⟨S1024x32, .i32⟩
  | 86 => ⟨S1024x32, .i32⟩
  | 87 => ⟨S1024x32x1, .i32⟩
  | 88 => ⟨S1024x32x128, .f32⟩
  | 89 => ⟨S_, .f32⟩
  | 90 => ⟨S1024x128, .f32⟩
  | 91 => ⟨S_, .f32⟩
  | 92 => ⟨S1024x128, .f32⟩
  | 93 => ⟨S1024x128, .f32⟩
  | 94 => ⟨S1x50000x32, .i32⟩
  | 95 => ⟨S50000x32, .i32⟩
  | 96 => ⟨S_, .i32⟩
  | 97 => ⟨S1024, .i32⟩
  | 98 => ⟨S1024, .i1⟩
  | 99 => ⟨S_, .i32⟩
  | 100 => ⟨S1024, .i32⟩
  | 101 => ⟨S1024, .i32⟩
  | 102 => ⟨S1024, .i32⟩
  | 103 => ⟨S1024x1, .i32⟩
  | 104 => ⟨S1024x32, .i32⟩
  | 105 => ⟨S_, .i32⟩
  | 106 => ⟨S1024x32, .i32⟩
  | 107 => ⟨S1024x32, .i1⟩
  | 108 => ⟨S_, .i32⟩
  | 109 => ⟨S1024x32, .i32⟩
  | 110 => ⟨S1024x32, .i32⟩
  | 111 => ⟨S1024x32, .i32⟩
  | 112 => ⟨S1024x32x1, .i32⟩
  | 113 => ⟨S1024x32x128, .f32⟩
  | 114 => ⟨S_, .f32⟩
  | 115 => ⟨S1024x128, .f32⟩
  | 116 => ⟨S_, .f32⟩
  | 117 => ⟨S1024x128, .f32⟩
  | 118 => ⟨S1024x128, .f32⟩
  | 119 => ⟨S1x50000x32, .i32⟩
  | 120 => ⟨S50000x32, .i32⟩
  | 121 => ⟨S_, .i32⟩
  | 122 => ⟨S1024, .i32⟩
  | 123 => ⟨S1024, .i1⟩
  | 124 => ⟨S_, .i32⟩
  | 125 => ⟨S1024, .i32⟩
  | 126 => ⟨S1024, .i32⟩
  | 127 => ⟨S1024, .i32⟩
  | _ => ⟨S50000x25, .f32⟩

abbrev hbmTy0_1 (i : Nat) : BufTy := match i % 128 with
  | 0 => ⟨S1024x1, .i32⟩
  | 1 => ⟨S1024x32, .i32⟩
  | 2 => ⟨S_, .i32⟩
  | 3 => ⟨S1024x32, .i32⟩
  | 4 => ⟨S1024x32, .i1⟩
  | 5 => ⟨S_, .i32⟩
  | 6 => ⟨S1024x32, .i32⟩
  | 7 => ⟨S1024x32, .i32⟩
  | 8 => ⟨S1024x32, .i32⟩
  | 9 => ⟨S1024x32x1, .i32⟩
  | 10 => ⟨S1024x32x128, .f32⟩
  | 11 => ⟨S_, .f32⟩
  | 12 => ⟨S1024x128, .f32⟩
  | 13 => ⟨S_, .f32⟩
  | 14 => ⟨S1024x128, .f32⟩
  | 15 => ⟨S1024x128, .f32⟩
  | 16 => ⟨S1024x2, .f32⟩
  | _ => ⟨S50000x25, .f32⟩

abbrev hbmTy (i : Nat) : BufTy := match i / 128 with
  | 0 => hbmTy0_0 i
  | 1 => hbmTy0_1 i
  | _ => ⟨S50000x25, .f32⟩

abbrev bufTy : (tb : Table) → Fin (tcTables nBuf tb) → BufTy
  | .hbm, ⟨i, _⟩ => hbmTy i
  | .local _ .vmem, ⟨0, _⟩ => ⟨S10000x25, .f32⟩
  | .local _ .vmem, ⟨1, _⟩ => ⟨S10000x25, .f32⟩
  | .local _ .vmem, ⟨2, _⟩ => ⟨S25x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S128x3, .f32⟩
  | .local _ .vmem, ⟨14, _⟩ => ⟨S5000x192, .f32⟩
  | .local _ .vmem, ⟨15, _⟩ => ⟨S5000x192, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x192, .f32⟩
  | .local _ .vmem, ⟨25, _⟩ => ⟨S256x192, .f32⟩
  | .local _ .vmem, ⟨26, _⟩ => ⟨S256x3, .f32⟩
  | .local _ .vmem, ⟨27, _⟩ => ⟨S448x2, .f32⟩
  | .local _ .vmem, ⟨28, _⟩ => ⟨S2, .f32⟩
  | .local _ .vmem, ⟨29, _⟩ => ⟨S256x2, .f32⟩
  | .local _ .vmem, ⟨30, _⟩ => ⟨S256x2, .f32⟩
  | _, _ => ⟨S50000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_14 : Ref sig .tc := ⟨.hbm, 80, rfl⟩
abbrev main_v56 : Ref sig .tc := ⟨.hbm, 81, rfl⟩
abbrev main_v57 : Ref sig .tc := ⟨.hbm, 82, rfl⟩
abbrev main_c_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_16 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_18 : Ref sig .tc := ⟨.hbm, 96, rfl⟩
abbrev main_v68 : Ref sig .tc := ⟨.hbm, 97, rfl⟩
abbrev main_v69 : Ref sig .tc := ⟨.hbm, 98, rfl⟩
abbrev main_c_19 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_20 : Ref sig .tc := ⟨.hbm, 105, rfl⟩
abbrev main_v75 : Ref sig .tc := ⟨.hbm, 106, rfl⟩
abbrev main_v76 : Ref sig .tc := ⟨.hbm, 107, rfl⟩
abbrev main_c_21 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_22 : Ref sig .tc := ⟨.hbm, 114, rfl⟩
abbrev main_v82 : Ref sig .tc := ⟨.hbm, 115, rfl⟩
abbrev main_cst_23 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_24 : Ref sig .tc := ⟨.hbm, 121, rfl⟩
abbrev main_v87 : Ref sig .tc := ⟨.hbm, 122, rfl⟩
abbrev main_v88 : Ref sig .tc := ⟨.hbm, 123, rfl⟩
abbrev main_c_25 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_26 : Ref sig .tc := ⟨.hbm, 130, rfl⟩
abbrev main_v94 : Ref sig .tc := ⟨.hbm, 131, rfl⟩
abbrev main_v95 : Ref sig .tc := ⟨.hbm, 132, rfl⟩
abbrev main_c_27 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_28 : Ref sig .tc := ⟨.hbm, 139, rfl⟩
abbrev main_v101 : Ref sig .tc := ⟨.hbm, 140, rfl⟩
abbrev main_cst_29 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem8_1 : DmaSem sig := 30

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S448x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  inb_S10000x25_S10000x25_0_0 : ∀ a, (![0, 0] : Fin 2 → Nat) a + S10000x25.size a ≤ S10000x25.size a
  h_S10000x25 : 0 < S10000x25.numel
  bitsLt_bf16_f32 : FTy.bits .bf16 < FTy.bits .f32
  inb_S25x64_S25x64_0_0 : ∀ a, (![0, 0] : Fin 2 → Nat) a + S25x64.size a ≤ S25x64.size a
  h_S25x64 : 0 < S25x64.numel
  inb_S10000x64_S10000x64_0_0 : ∀ a, (![0, 0] : Fin 2 → Nat) a + S10000x64.size a ≤ S10000x64.size a
  h_S10000x64 : 0 < S10000x64.numel
  slices_S3x50000x32_S1x50000x32_0_0_0 : S3x50000x32.Slices ![0, 0, 0] S1x50000x32
  shapeCasts_S1x50000x32_S50000x32 : S1x50000x32.ShapeCasts S50000x32
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  reducesTo_S50000x32x64_S50000x64_d1 : S50000x32x64.ReducesTo [1] S50000x64
  h_S_ : 0 < S_.numel
  bcast_S_S50000x64 : S_.BroadcastsInDim S50000x64 (![] : Fin 0 → Fin S50000x64.rank)
  slices_S3x50000x32_S1x50000x32_1_0_0 : S3x50000x32.Slices ![1, 0, 0] S1x50000x32
  slices_S3x50000x32_S1x50000x32_2_0_0 : S3x50000x32.Slices ![2, 0, 0] S1x50000x32
  inb_S128x3_S128x3_0_0 : ∀ a, (![0, 0] : Fin 2 → Nat) a + S128x3.size a ≤ S128x3.size a
  h_S128x3 : 0 < S128x3.numel
  reduces_S128x3_S128 : S128x3.Reduces [1] S128
  shapeCasts_S128_S128x1 : S128.ShapeCasts S128x1
  broadcasts_S128x1_S128x3 : S128x1.Broadcasts S128x3
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  slices_S128x3_o0_0_S128x1 : S128x3.Slices ![0, 0] S128x1
  shapeCasts_S128x1_S128 : S128x1.ShapeCasts S128
  shapeCasts_S128_S1x128 : S128.ShapeCasts S1x128
  broadcasts_S1x128_S5000x128 : S1x128.Broadcasts S5000x128
  slices_S128x3_o0_1_S128x1 : S128x3.Slices ![0, 1] S128x1
  slices_S128x3_o0_2_S128x1 : S128x3.Slices ![0, 2] S128x1
  concatenates_S5000x64_S5000x128_S5000x192_d1 : Shape.Concatenates [S5000x64, S5000x128] S5000x192 1
  inb_S5000x192_S5000x192_0_0 : ∀ a, (![0, 0] : Fin 2 → Nat) a + S5000x192.size a ≤ S5000x192.size a
  h_S5000x192 : 0 < S5000x192.numel
  bcast_S_S1024 : S_.BroadcastsInDim S1024 (![] : Fin 0 → Fin S1024.rank)
  bcast_S1024_S1024x1_0 : S1024.BroadcastsInDim S1024x1 (![0] : Fin 1 → Fin S1024x1.rank)
  slices_S50000x192_S50000x128_0_64 : S50000x192.Slices ![0, 64] S50000x128
  slices_S1024x192_S1024x128_0_64 : S1024x192.Slices ![0, 64] S1024x128
  bcast_S_S1024x32 : S_.BroadcastsInDim S1024x32 (![] : Fin 0 → Fin S1024x32.rank)
  bcast_S1024x32_S1024x32x1_0_1 : S1024x32.BroadcastsInDim S1024x32x1 (![0, 1] : Fin 2 → Fin S1024x32x1.rank)
  reducesTo_S1024x32x128_S1024x128_d1 : S1024x32x128.ReducesTo [1] S1024x128
  bcast_S_S1024x128 : S_.BroadcastsInDim S1024x128 (![] : Fin 0 → Fin S1024x128.rank)
  inb_S256x3_S256x3_0_0 : ∀ a, (![0, 0] : Fin 2 → Nat) a + S256x3.size a ≤ S256x3.size a
  h_S256x3 : 0 < S256x3.numel
  reduces_S256x3_S256 : S256x3.Reduces [1] S256
  shapeCasts_S256_S256x1 : S256.ShapeCasts S256x1
  broadcasts_S256x1_S256x3 : S256x1.Broadcasts S256x3
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x192_S256x192_0_0 : ∀ a, (![0, 0] : Fin 2 → Nat) a + S256x192.size a ≤ S256x192.size a
  h_S256x192 : 0 < S256x192.numel
  shapeCasts_S256x192_S256x192 : S256x192.ShapeCasts S256x192
  concatenates_S256x128_S256x128_S256x256_d1 : Shape.Concatenates [S256x128, S256x128] S256x256 1
  slices_S256x3_o0_0_S256x1 : S256x3.Slices ![0, 0] S256x1
  shapeCasts_S256x1_S256 : S256x1.ShapeCasts S256
  shapeCasts_S256_S1x256 : S256.ShapeCasts S1x256
  broadcasts_S1x256_S256x256 : S1x256.Broadcasts S256x256
  slices_S256x3_o0_1_S256x1 : S256x3.Slices ![0, 1] S256x1
  slices_S256x3_o0_2_S256x1 : S256x3.Slices ![0, 2] S256x1
  concatenates_S256x192_S256x256_S256x448_d1 : Shape.Concatenates [S256x192, S256x256] S256x448 1
  inb_S448x2_S448x2_0_0 : ∀ a, (![0, 0] : Fin 2 → Nat) a + S448x2.size a ≤ S448x2.size a
  h_S448x2 : 0 < S448x2.numel
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  dot_S10000x25_S25x64_S10000x64_1_0_0_1_n_n_wf : DotDims.WF S10000x25 S25x64 S10000x64 [1] [0] [0] [1] [] []
  gather_S50000x64_S50000x32x1_S50000x32x64_2_0_n_n_0_2_164_wf : GatherDims.WF S50000x64 S50000x32x1 S50000x32x64 [2] [0] [] [0] [] 2 ![1, 64]
  gather_S50000x192_S1024x1_S1024x192_1_0_n_n_0_1_1192_wf : GatherDims.WF S50000x192 S1024x1 S1024x192 [1] [0] [] [0] [] 1 ![1, 192]
  gather_S50000x32_S1024x1_S1024x32_1_0_n_n_0_1_132_wf : GatherDims.WF S50000x32 S1024x1 S1024x32 [1] [0] [] [0] [] 1 ![1, 32]
  gather_S50000x128_S1024x32x1_S1024x32x128_2_0_n_n_0_2_1128_wf : GatherDims.WF S50000x128 S1024x32x1 S1024x32x128 [2] [0] [] [0] [] 2 ![1, 128]
  dot_S256x448_S448x2_S256x2_1_0_0_1_n_n_wf : DotDims.WF S256x448 S448x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x25.size a ≤ S50000x25.size a
  hwx0_0 : ∀ i : grid0.Coords, EltTy.bits .f32 = 32 ∨ (Rect.block (s := S50000x25) S10000x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x64.size a ≤ S25x64.size a
  hwx0_1 : ∀ i : grid0.Coords, EltTy.bits .f32 = 32 ∨ (Rect.block (s := S25x64) S25x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x3.size a ≤ S128x3.size a
  hwx1_4 : ∀ i : grid1.Coords, EltTy.bits .f32 = 32 ∨ (Rect.block (s := S128x3) S128x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x192.size a ≤ S50000x192.size a
  hwx1_5 : ∀ i : grid1.Coords, EltTy.bits .f32 = 32 ∨ (Rect.block (s := S50000x192) S5000x192.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S1024x128.size a
  hwx2_0 : ∀ i : grid2.Coords, EltTy.bits .f32 = 32 ∨ (Rect.block (s := S1024x128) S256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S1024x128.size a
  hwx2_1 : ∀ i : grid2.Coords, EltTy.bits .f32 = 32 ∨ (Rect.block (s := S1024x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S1024x128.size a
  hwx2_2 : ∀ i : grid2.Coords, EltTy.bits .f32 = 32 ∨ (Rect.block (s := S1024x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S1024x128.size a
  hwx2_3 : ∀ i : grid2.Coords, EltTy.bits .f32 = 32 ∨ (Rect.block (s := S1024x128) S256x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x192.size a ≤ S1024x192.size a
  hwx2_4 : ∀ i : grid2.Coords, EltTy.bits .f32 = 32 ∨ (Rect.block (s := S1024x192) S256x192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x3.size a ≤ S256x3.size a
  hwx2_5 : ∀ i : grid2.Coords, EltTy.bits .f32 = 32 ∨ (Rect.block (s := S256x3) S256x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S448x2.size a ≤ S448x2.size a
  hwx2_6 : ∀ i : grid2.Coords, EltTy.bits .f32 = 32 ∨ (Rect.block (s := S448x2) S448x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2.size a ≤ S2.size a
  hwx2_7 : ∀ i : grid2.Coords, EltTy.bits .f32 = 32 ∨ (Rect.block (s := S2) S2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x2.size a ≤ S1024x2.size a
  hwx2_8 : ∀ i : grid2.Coords, EltTy.bits .f32 = 32 ∨ (Rect.block (s := S1024x2) S256x2.size (cc2_transform_8 i) (hinb2_8 i)).WholeWords (EltTy.packing .f32)

variable [Facts₀]

def dot_S10000x25_S25x64_S10000x64_1_0_0_1_n_n : DotDims S10000x25 S25x64 S10000x64 where
  lhsContracting := [1]
  rhsContracting := [0]
  lhsNonContracting := [0]
  rhsNonContracting := [1]
  lhsBatch := []
  rhsBatch := []
  wf := dot_S10000x25_S25x64_S10000x64_1_0_0_1_n_n_wf
def gather_S50000x64_S50000x32x1_S50000x32x64_2_0_n_n_0_2_164 : GatherDims S50000x64 S50000x32x1 S50000x32x64 where
  offsetDims := [2]
  collapsedSliceDims := [0]
  operandBatchingDims := []
  startIndicesBatchingDims := []
  startIndexMap := [0]
  indexVectorDim := 2
  sliceSizes := ![1, 64]
  wf := gather_S50000x64_S50000x32x1_S50000x32x64_2_0_n_n_0_2_164_wf
def gather_S50000x192_S1024x1_S1024x192_1_0_n_n_0_1_1192 : GatherDims S50000x192 S1024x1 S1024x192 where
  offsetDims := [1]
  collapsedSliceDims := [0]
  operandBatchingDims := []
  startIndicesBatchingDims := []
  startIndexMap := [0]
  indexVectorDim := 1
  sliceSizes := ![1, 192]
  wf := gather_S50000x192_S1024x1_S1024x192_1_0_n_n_0_1_1192_wf
def gather_S50000x32_S1024x1_S1024x32_1_0_n_n_0_1_132 : GatherDims S50000x32 S1024x1 S1024x32 where
  offsetDims := [1]
  collapsedSliceDims := [0]
  operandBatchingDims := []
  startIndicesBatchingDims := []
  startIndexMap := [0]
  indexVectorDim := 1
  sliceSizes := ![1, 32]
  wf := gather_S50000x32_S1024x1_S1024x32_1_0_n_n_0_1_132_wf
def gather_S50000x128_S1024x32x1_S1024x32x128_2_0_n_n_0_2_1128 : GatherDims S50000x128 S1024x32x1 S1024x32x128 where
  offsetDims := [2]
  collapsedSliceDims := [0]
  operandBatchingDims := []
  startIndicesBatchingDims := []
  startIndexMap := [0]
  indexVectorDim := 2
  sliceSizes := ![1, 128]
  wf := gather_S50000x128_S1024x32x1_S1024x32x128_2_0_n_n_0_2_1128_wf
def dot_S256x448_S448x2_S256x2_1_0_0_1_n_n : DotDims S256x448 S448x2 S256x2 where
  lhsContracting := [1]
  rhsContracting := [0]
  lhsNonContracting := [0]
  rhsNonContracting := [1]
  lhsBatch := []
  rhsBatch := []
  wf := dot_S256x448_S448x2_S256x2_1_0_0_1_n_n_wf

abbrev win0_0 : Pipeline.Window sig grid0 :=
  Pipeline.Window.ofSpec (Memref.whole main_arg0) S10000x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x192.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S256x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v103) S256x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S256x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v44) S256x192.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg3) S256x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg4) S448x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg5) S2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v104) S256x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x25 : Shape := ⟨2, ![50000, 25]⟩
abbrev S25x64 : Shape := ⟨2, ![25, 64]⟩
abbrev S128x3 : Shape := ⟨2, ![128, 3]⟩
abbrev S256x3 : Shape := ⟨2, ![256, 3]⟩
abbrev S448x2 : Shape := ⟨2, ![448, 2]⟩
abbrev S2 : Shape := ⟨1, ![2]⟩
abbrev S3x50000x32 : Shape := ⟨3, ![3, 50000, 32]⟩
abbrev S1024 : Shape := ⟨1, ![1024]⟩
abbrev S50000x64 : Shape := ⟨2, ![50000, 64]⟩
abbrev S50000 : Shape := ⟨1, ![50000]⟩
abbrev S_ : Shape := ⟨0, ![]⟩
abbrev S128 : Shape := ⟨1, ![128]⟩
abbrev S128x1 : Shape := ⟨2, ![128, 1]⟩
abbrev S50000x128 : Shape := ⟨2, ![50000, 128]⟩
abbrev S1x50000x32 : Shape := ⟨3, ![1, 50000, 32]⟩
abbrev S50000x32 : Shape := ⟨2, ![50000, 32]⟩
abbrev S50000x1 : Shape := ⟨2, ![50000, 1]⟩
abbrev S50000x32x1 : Shape := ⟨3, ![50000, 32, 1]⟩
abbrev S50000x32x64 : Shape := ⟨3, ![50000, 32, 64]⟩
abbrev S1x128 : Shape := ⟨2, ![1, 128]⟩
abbrev S50000x192 : Shape := ⟨2, ![50000, 192]⟩
abbrev S1024x1 : Shape := ⟨2, ![1024, 1]⟩
abbrev S1024x192 : Shape := ⟨2, ![1024, 192]⟩
abbrev S1024x128 : Shape := ⟨2, ![1024, 128]⟩
abbrev S256 : Shape := ⟨1, ![256]⟩
abbrev S256x1 : Shape := ⟨2, ![256, 1]⟩
abbrev S1024x256 : Shape := ⟨2, ![1024, 256]⟩
abbrev S1024x32 : Shape := ⟨2, ![1024, 32]⟩
abbrev S1024x32x1 : Shape := ⟨3, ![1024, 32, 1]⟩
abbrev S1024x32x128 : Shape := ⟨3, ![1024, 32, 128]⟩
abbrev S1x256 : Shape := ⟨2, ![1, 256]⟩
abbrev S1024x448 : Shape := ⟨2, ![1024, 448]⟩
abbrev S1024x2 : Shape := ⟨2, ![1024, 2]⟩
abbrev S1x2 : Shape := ⟨2, ![1, 2]⟩

abbrev nBuf : Space → Nat
  | .hbm => 258
  | .vmem => 0
  | .smem => 0
  | _ => 0

abbrev hbmTy0_0 (i : Nat) : BufTy := match i % 128 with
  | 0 => ⟨S50000x25, .f32⟩
  | 1 => ⟨S25x64, .f32⟩
  | 2 => ⟨S128x3, .f32⟩
  | 3 => ⟨S256x3, .f32⟩
  | 4 => ⟨S448x2, .f32⟩
  | 5 => ⟨S2, .f32⟩
  | 6 => ⟨S3x50000x32, .i32⟩
  | 7 => ⟨S1024, .i32⟩
  | 8 => ⟨S50000x64, .f32⟩
  | 9 => ⟨S50000, .i32⟩
  | 10 => ⟨S_, .f32⟩
  | 11 => ⟨S128, .f32⟩
  | 12 => ⟨S_, .f32⟩
  | 13 => ⟨S128, .f32⟩
  | 14 => ⟨S128, .f32⟩
  | 15 => ⟨S128x1, .f32⟩
  | 16 => ⟨S128x3, .f32⟩
  | 17 => ⟨S128x3, .f32⟩
  | 18 => ⟨S128x3, .f32⟩
  | 19 => ⟨S_, .f32⟩
  | 20 => ⟨S128, .f32⟩
  | 21 => ⟨S128x1, .f32⟩
  | 22 => ⟨S128x3, .f32⟩
  | 23 => ⟨S128x3, .f32⟩
  | 24 => ⟨S_, .f32⟩
  | 25 => ⟨S50000x128, .f32⟩
  | 26 => ⟨S1x50000x32, .i32⟩
  | 27 => ⟨S50000x32, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x32, .i32⟩
  | 37 => ⟨S_, .i32⟩
  | 38 => ⟨S50000x32, .i32⟩
  | 39 => ⟨S50000x32, .i1⟩
  | 40 => ⟨S_, .i32⟩
  | 41 => ⟨S50000x32, .i32⟩
  | 42 => ⟨S50000x32, .i32⟩
  | 43 => ⟨S50000x32, .i32⟩
  | 44 => ⟨S50000x32x1, .i32⟩
  | 45 => ⟨S50000x32x64, .f32⟩
  | 46 => ⟨S_, .f32⟩
  | 47 => ⟨S50000x64, .f32⟩
  | 48 => ⟨S_, .f32⟩
  | 49 => ⟨S50000x64, .f32⟩
  | 50 => ⟨S50000x64, .f32⟩
  | 51 => ⟨S50000x64, .f32⟩
  | 52 => ⟨S50000x128, .f32⟩
  | 53 => ⟨S128x1, .f32⟩
  | 54 => ⟨S128, .f32⟩
  | 55 => ⟨S1x128, .f32⟩
  | 56 => ⟨S50000x128, .f32⟩
  | 57 => ⟨S50000x128, .f32⟩
  | 58 => ⟨S50000x128, .f32⟩
  | 59 => ⟨S1x50000x32, .i32⟩
  | 60 => ⟨S50000x32, .i32⟩
  | 61 => ⟨S_, .i32⟩
  | 62 => ⟨S50000, .i32⟩
  | 63 => ⟨S50000, .i1⟩
  | 64 => ⟨S_, .i32⟩
  | 65 => ⟨S50000, .i32⟩
  | 66 => ⟨S50000, .i32⟩
  | 67 => ⟨S50000, .i32⟩
  | 68 => ⟨S50000x1, .i32⟩
  | 69 => ⟨S50000x32, .i32⟩
  | 70 => ⟨S_, .i32⟩
  | 71 => ⟨S50000x32, .i32⟩
  | 72 => ⟨S50000x32, .i1⟩
  | 73 => ⟨S_, .i32⟩
  | 74 => ⟨S50000x32, .i32⟩
  | 75 => ⟨S50000x32, .i32⟩
  | 76 => ⟨S50000x32, .i32⟩
  | 77 => ⟨S50000x32x1, .i32⟩
  | 78 => ⟨S50000x32x64, .f32⟩
  | 79 => ⟨S_, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S50000x128, .f32⟩
  | 86 => ⟨S128x1, .f32⟩
  | 87 => ⟨S128, .f32⟩
  | 88 => ⟨S1x128, .f32⟩
  | 89 => ⟨S50000x128, .f32⟩
  | 90 => ⟨S50000x128, .f32⟩
  | 91 => ⟨S50000x128, .f32⟩
  | 92 => ⟨S1x50000x32, .i32⟩
  | 93 => ⟨S50000x32, .i32⟩
  | 94 => ⟨S_, .i32⟩
  | 95 => ⟨S50000, .i32⟩
  | 96 => ⟨S50000, .i1⟩
  | 97 => ⟨S_, .i32⟩
  | 98 => ⟨S50000, .i32⟩
  | 99 => ⟨S50000, .i32⟩
  | 100 => ⟨S50000, .i32⟩
  | 101 => ⟨S50000x1, .i32⟩
  | 102 => ⟨S50000x32, .i32⟩
  | 103 => ⟨S_, .i32⟩
  | 104 => ⟨S50000x32, .i32⟩
  | 105 => ⟨S50000x32, .i1⟩
  | 106 => ⟨S_, .i32⟩
  | 107 => ⟨S50000x32, .i32⟩
  | 108 => ⟨S50000x32, .i32⟩
  | 109 => ⟨S50000x32, .i32⟩
  | 110 => ⟨S50000x32x1, .i32⟩
  | 111 => ⟨S50000x32x64, .f32⟩
  | 112 => ⟨S_, .f32⟩
  | 113 => ⟨S50000x64, .f32⟩
  | 114 => ⟨S_, .f32⟩
  | 115 => ⟨S50000x64, .f32⟩
  | 116 => ⟨S50000x64, .f32⟩
  | 117 => ⟨S50000x64, .f32⟩
  | 118 => ⟨S50000x128, .f32⟩
  | 119 => ⟨S128x1, .f32⟩
  | 120 => ⟨S128, .f32⟩
  | 121 => ⟨S1x128, .f32⟩
  | 122 => ⟨S50000x128, .f32⟩
  | 123 => ⟨S50000x128, .f32⟩
  | 124 => ⟨S50000x128, .f32⟩
  | 125 => ⟨S50000x192, .f32⟩
  | 126 => ⟨S_, .i32⟩
  | 127 => ⟨S1024, .i32⟩
  | _ => ⟨S50000x25, .f32⟩

abbrev hbmTy0_1 (i : Nat) : BufTy := match i % 128 with
  | 0 => ⟨S1024, .i1⟩
  | 1 => ⟨S_, .i32⟩
  | 2 => ⟨S1024, .i32⟩
  | 3 => ⟨S1024, .i32⟩
  | 4 => ⟨S1024, .i32⟩
  | 5 => ⟨S1024x1, .i32⟩
  | 6 => ⟨S1024x192, .f32⟩
  | 7 => ⟨S1024x128, .f32⟩
  | 8 => ⟨S50000x128, .f32⟩
  | 9 => ⟨S_, .f32⟩
  | 10 => ⟨S256, .f32⟩
  | 11 => ⟨S_, .f32⟩
  | 12 => ⟨S256, .f32⟩
  | 13 => ⟨S256, .f32⟩
  | 14 => ⟨S256x1, .f32⟩
  | 15 => ⟨S256x3, .f32⟩
  | 16 => ⟨S256x3, .f32⟩
  | 17 => ⟨S256x3, .f32⟩
  | 18 => ⟨S_, .f32⟩
  | 19 => ⟨S256, .f32⟩
  | 20 => ⟨S256x1, .f32⟩
  | 21 => ⟨S256x3, .f32⟩
  | 22 => ⟨S256x3, .f32⟩
  | 23 => ⟨S_, .f32⟩
  | 24 => ⟨S1024x256, .f32⟩
  | 25 => ⟨S1x50000x32, .i32⟩
  | 26 => ⟨S50000x32, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S1024x32, .i32⟩
  | 36 => ⟨S_, .i32⟩
  | 37 => ⟨S1024x32, .i32⟩
  | 38 => ⟨S1024x32, .i1⟩
  | 39 => ⟨S_, .i32⟩
  | 40 => ⟨S1024x32, .i32⟩
  | 41 => ⟨S1024x32, .i32⟩
  | 42 => ⟨S1024x32, .i32⟩
  | 43 => ⟨S1024x32x1, .i32⟩
  | 44 => ⟨S1024x32x128, .f32⟩
  | 45 => ⟨S_, .f32⟩
  | 46 => ⟨S1024x128, .f32⟩
  | 47 => ⟨S_, .f32⟩
  | 48 => ⟨S1024x128, .f32⟩
  | 49 => ⟨S1024x128, .f32⟩
  | 50 => ⟨S1024x128, .f32⟩
  | 51 => ⟨S1024x256, .f32⟩
  | 52 => ⟨S256x1, .f32⟩
  | 53 => ⟨S256, .f32⟩
  | 54 => ⟨S1x256, .f32⟩
  | 55 => ⟨S1024x256, .f32⟩
  | 56 => ⟨S1024x256, .f32⟩
  | 57 => ⟨S1024x256, .f32⟩
  | 58 => ⟨S1x50000x32, .i32⟩
  | 59 => ⟨S50000x32, .i32⟩
  | 60 => ⟨S_, .i32⟩
  | 61 => ⟨S1024, .i32⟩
  | 62 => ⟨S1024, .i1⟩
  | 63 => ⟨S_, .i32⟩
  | 64 => ⟨S1024, .i32⟩
  | 65 => ⟨S1024, .i32⟩
  | 66 => ⟨S1024, .i32⟩
  | 67 => ⟨S1024x1, .i32⟩
  | 68 => ⟨S1024x32, .i32⟩
  | 69 => ⟨S_, .i32⟩
  | 70 => ⟨S1024x32, .i32⟩
  | 71 => ⟨S1024x32, .i1⟩
  | 72 => ⟨S_, .i32⟩
  | 73 => ⟨S1024x32, .i32⟩
  | 74 => ⟨S1024x32, .i32⟩
  | 75 => ⟨S1024x32, .i32⟩
  | 76 => ⟨S1024x32x1, .i32⟩
  | 77 => ⟨S1024x32x128, .f32⟩
  | 78 => ⟨S_, .f32⟩
  | 79 => ⟨S1024x128, .f32⟩
  | 80 => ⟨S_, .f32⟩
  | 81 => ⟨S1024x128, .f32⟩
  | 82 => ⟨S1024x128, .f32⟩
  | 83 => ⟨S1024x128, .f32⟩
  | 84 => ⟨S1024x256, .f32⟩
  | 85 => ⟨S256x1, .f32⟩
  | 86 => ⟨S256, .f32⟩
  | 87 => ⟨S1x256, .f32⟩
  | 88 => ⟨S1024x256, .f32⟩
  | 89 => ⟨S1024x256, .f32⟩
  | 90 => ⟨S1024x256, .f32⟩
  | 91 => ⟨S1x50000x32, .i32⟩
  | 92 => ⟨S50000x32, .i32⟩
  | 93 => ⟨S_, .i32⟩
  | 94 => ⟨S1024, .i32⟩
  | 95 => ⟨S1024, .i1⟩
  | 96 => ⟨S_, .i32⟩
  | 97 => ⟨S1024, .i32⟩
  | 98 => ⟨S1024, .i32⟩
  | 99 => ⟨S1024, .i32⟩
  | 100 => ⟨S1024x1, .i32⟩
  | 101 => ⟨S1024x32, .i32⟩
  | 102 => ⟨S_, .i32⟩
  | 103 => ⟨S1024x32, .i32⟩
  | 104 => ⟨S1024x32, .i1⟩
  | 105 => ⟨S_, .i32⟩
  | 106 => ⟨S1024x32, .i32⟩
  | 107 => ⟨S1024x32, .i32⟩
  | 108 => ⟨S1024x32, .i32⟩
  | 109 => ⟨S1024x32x1, .i32⟩
  | 110 => ⟨S1024x32x128, .f32⟩
  | 111 => ⟨S_, .f32⟩
  | 112 => ⟨S1024x128, .f32⟩
  | 113 => ⟨S_, .f32⟩
  | 114 => ⟨S1024x128, .f32⟩
  | 115 => ⟨S1024x128, .f32⟩
  | 116 => ⟨S1024x128, .f32⟩
  | 117 => ⟨S1024x256, .f32⟩
  | 118 => ⟨S256x1, .f32⟩
  | 119 => ⟨S256, .f32⟩
  | 120 => ⟨S1x256, .f32⟩
  | 121 => ⟨S1024x256, .f32⟩
  | 122 => ⟨S1024x256, .f32⟩
  | 123 => ⟨S1024x256, .f32⟩
  | 124 => ⟨S1024x448, .f32⟩
  | 125 => ⟨S1024x2, .f32⟩
  | 126 => ⟨S2, .f32⟩
  | 127 => ⟨S1x2, .f32⟩
  | _ => ⟨S50000x25, .f32⟩

abbrev hbmTy0_2 (i : Nat) : BufTy := match i % 128 with
  | 0 => ⟨S1024x2, .f32⟩
  | 1 => ⟨S1024x2, .f32⟩
  | _ => ⟨S50000x25, .f32⟩

abbrev hbmTy (i : Nat) : BufTy := match i / 128 with
  | 0 => hbmTy0_0 i
  | 1 => hbmTy0_1 i
  | 2 => hbmTy0_2 i
  | _ => ⟨S50000x25, .f32⟩

abbrev bufTy : (tb : Table) → Fin (tcTables nBuf tb) → BufTy
  | .hbm, ⟨i, _⟩ => hbmTy i
  | _, _ => ⟨S50000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_20 : Ref sig .tc := ⟨.hbm, 126, rfl⟩
abbrev main_v96 : Ref sig .tc := ⟨.hbm, 127, rfl⟩
abbrev main_v97 : Ref sig .tc := ⟨.hbm, 128, rfl⟩
abbrev main_c_21 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_22 : Ref sig .tc := ⟨.hbm, 137, rfl⟩
abbrev main_v105 : Ref sig .tc := ⟨.hbm, 138, rfl⟩
abbrev main_cst_23 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_24 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_25 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_c_26 : Ref sig .tc := ⟨.hbm, 155, rfl⟩
abbrev main_v119 : Ref sig .tc := ⟨.hbm, 156, rfl⟩
abbrev main_v120 : Ref sig .tc := ⟨.hbm, 157, rfl⟩
abbrev main_c_27 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_c_28 : Ref sig .tc := ⟨.hbm, 164, rfl⟩
abbrev main_v126 : Ref sig .tc := ⟨.hbm, 165, rfl⟩
abbrev main_v127 : Ref sig .tc := ⟨.hbm, 166, rfl⟩
abbrev main_c_29 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_30 : Ref sig .tc := ⟨.hbm, 173, rfl⟩
abbrev main_v133 : Ref sig .tc := ⟨.hbm, 174, rfl⟩
abbrev main_cst_31 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_c_32 : Ref sig .tc := ⟨.hbm, 188, rfl⟩
abbrev main_v146 : Ref sig .tc := ⟨.hbm, 189, rfl⟩
abbrev main_v147 : Ref sig .tc := ⟨.hbm, 190, rfl⟩
abbrev main_c_33 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_c_34 : Ref sig .tc := ⟨.hbm, 197, rfl⟩
abbrev main_v153 : Ref sig .tc := ⟨.hbm, 198, rfl⟩
abbrev main_v154 : Ref sig .tc := ⟨.hbm, 199, rfl⟩
abbrev main_c_35 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_36 : Ref sig .tc := ⟨.hbm, 206, rfl⟩
abbrev main_v160 : Ref sig .tc := ⟨.hbm, 207, rfl⟩
abbrev main_cst_37 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_c_38 : Ref sig .tc := ⟨.hbm, 221, rfl⟩
abbrev main_v173 : Ref sig .tc := ⟨.hbm, 222, rfl⟩
abbrev main_v174 : Ref sig .tc := ⟨.hbm, 223, rfl⟩
abbrev main_c_39 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_c_40 : Ref sig .tc := ⟨.hbm, 230, rfl⟩
abbrev main_v180 : Ref sig .tc := ⟨.hbm, 231, rfl⟩
abbrev main_v181 : Ref sig .tc := ⟨.hbm, 232, rfl⟩
abbrev main_c_41 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_42 : Ref sig .tc := ⟨.hbm, 239, rfl⟩
abbrev main_v187 : Ref sig .tc := ⟨.hbm, 240, rfl⟩
abbrev main_cst_43 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩

abbrev nD : Nat := 1
abbrev τ : Topo := Topo.v7x

variable {F : FTy → Type} [FloatOps F]

class Facts₀ : Prop where
  reducesTo_S128x3_S128_d1 : S128x3.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x3_0_1 : S128x1.BroadcastsInDim S128x3 (![0, 1] : Fin 2 → Fin S128x3.rank)
  bcast_S_S50000x128 : S_.BroadcastsInDim S50000x128 (![] : Fin 0 → Fin S50000x128.rank)
  slices_S3x50000x32_S1x50000x32_0_0_0 : S3x50000x32.Slices ![0, 0, 0] S1x50000x32
  shapeCasts_S1x50000x32_S50000x32 : S1x50000x32.ShapeCasts S50000x32
  bcast_S_S50000 : S_.BroadcastsInDim S50000 (![] : Fin 0 → Fin S50000.rank)
  bcast_S50000_S50000x1_0 : S50000.BroadcastsInDim S50000x1 (![0] : Fin 1 → Fin S50000x1.rank)
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  reducesTo_S50000x32x64_S50000x64_d1 : S50000x32x64.ReducesTo [1] S50000x64
  bcast_S_S50000x64 : S_.BroadcastsInDim S50000x64 (![] : Fin 0 → Fin S50000x64.rank)
  concatenates_S50000x64_S50000x64_S50000x128_d1 : Shape.Concatenates [S50000x64, S50000x64] S50000x128 1
  slices_S128x3_S128x1_0_0 : S128x3.Slices ![0, 0] S128x1
  shapeCasts_S128x1_S128 : S128x1.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x50000x32_S1x50000x32_1_0_0 : S3x50000x32.Slices ![1, 0, 0] S1x50000x32
  slices_S128x3_S128x1_0_1 : S128x3.Slices ![0, 1] S128x1
  slices_S3x50000x32_S1x50000x32_2_0_0 : S3x50000x32.Slices ![2, 0, 0] S1x50000x32
  slices_S128x3_S128x1_0_2 : S128x3.Slices ![0, 2] S128x1
  concatenates_S50000x64_S50000x128_S50000x192_d1 : Shape.Concatenates [S50000x64, S50000x128] S50000x192 1
  bcast_S_S1024 : S_.BroadcastsInDim S1024 (![] : Fin 0 → Fin S1024.rank)
  bcast_S1024_S1024x1_0 : S1024.BroadcastsInDim S1024x1 (![0] : Fin 1 → Fin S1024x1.rank)
  slices_S1024x192_S1024x128_0_64 : S1024x192.Slices ![0, 64] S1024x128
  slices_S50000x192_S50000x128_0_64 : S50000x192.Slices ![0, 64] S50000x128
  reducesTo_S256x3_S256_d1 : S256x3.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x3_0_1 : S256x1.BroadcastsInDim S256x3 (![0, 1] : Fin 2 → Fin S256x3.rank)
  bcast_S_S1024x256 : S_.BroadcastsInDim S1024x256 (![] : Fin 0 → Fin S1024x256.rank)
  bcast_S_S1024x32 : S_.BroadcastsInDim S1024x32 (![] : Fin 0 → Fin S1024x32.rank)
  bcast_S1024x32_S1024x32x1_0_1 : S1024x32.BroadcastsInDim S1024x32x1 (![0, 1] : Fin 2 → Fin S1024x32x1.rank)
  reducesTo_S1024x32x128_S1024x128_d1 : S1024x32x128.ReducesTo [1] S1024x128
  bcast_S_S1024x128 : S_.BroadcastsInDim S1024x128 (![] : Fin 0 → Fin S1024x128.rank)
  concatenates_S1024x128_S1024x128_S1024x256_d1 : Shape.Concatenates [S1024x128, S1024x128] S1024x256 1
  slices_S256x3_S256x1_0_0 : S256x3.Slices ![0, 0] S256x1
  shapeCasts_S256x1_S256 : S256x1.ShapeCasts S256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  slices_S256x3_S256x1_0_1 : S256x3.Slices ![0, 1] S256x1
  slices_S256x3_S256x1_0_2 : S256x3.Slices ![0, 2] S256x1
  concatenates_S1024x192_S1024x256_S1024x448_d1 : Shape.Concatenates [S1024x192, S1024x256] S1024x448 1
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  dot_S50000x25_S25x64_S50000x64_1_0_0_1_n_n_wf : DotDims.WF S50000x25 S25x64 S50000x64 [1] [0] [0] [1] [] []
  gather_S50000x32_S50000x1_S50000x32_1_0_n_n_0_1_132_wf : GatherDims.WF S50000x32 S50000x1 S50000x32 [1] [0] [] [0] [] 1 ![1, 32]
  gather_S50000x64_S50000x32x1_S50000x32x64_2_0_n_n_0_2_164_wf : GatherDims.WF S50000x64 S50000x32x1 S50000x32x64 [2] [0] [] [0] [] 2 ![1, 64]
  gather_S50000x192_S1024x1_S1024x192_1_0_n_n_0_1_1192_wf : GatherDims.WF S50000x192 S1024x1 S1024x192 [1] [0] [] [0] [] 1 ![1, 192]
  gather_S50000x32_S1024x1_S1024x32_1_0_n_n_0_1_132_wf : GatherDims.WF S50000x32 S1024x1 S1024x32 [1] [0] [] [0] [] 1 ![1, 32]
  gather_S50000x128_S1024x32x1_S1024x32x128_2_0_n_n_0_2_1128_wf : GatherDims.WF S50000x128 S1024x32x1 S1024x32x128 [2] [0] [] [0] [] 2 ![1, 128]
  dot_S1024x448_S448x2_S1024x2_1_0_0_1_n_n_wf : DotDims.WF S1024x448 S448x2 S1024x2 [1] [0] [0] [1] [] []

variable [Facts₀]

def dot_S50000x25_S25x64_S50000x64_1_0_0_1_n_n : DotDims S50000x25 S25x64 S50000x64 where
  lhsContracting := [1]
  rhsContracting := [0]
  lhsNonContracting := [0]
  rhsNonContracting := [1]
  lhsBatch := []
  rhsBatch := []
  wf := dot_S50000x25_S25x64_S50000x64_1_0_0_1_n_n_wf
def gather_S50000x32_S50000x1_S50000x32_1_0_n_n_0_1_132 : GatherDims S50000x32 S50000x1 S50000x32 where
  offsetDims := [1]
  collapsedSliceDims := [0]
  operandBatchingDims := []
  startIndicesBatchingDims := []
  startIndexMap := [0]
  indexVectorDim := 1
  sliceSizes := ![1, 32]
  wf := gather_S50000x32_S50000x1_S50000x32_1_0_n_n_0_1_132_wf
def gather_S50000x64_S50000x32x1_S50000x32x64_2_0_n_n_0_2_164 : GatherDims S50000x64 S50000x32x1 S50000x32x64 where
  offsetDims := [2]
  collapsedSliceDims := [0]
  operandBatchingDims := []
  startIndicesBatchingDims := []
  startIndexMap := [0]
  indexVectorDim := 2
  sliceSizes := ![1, 64]
  wf := gather_S50000x64_S50000x32x1_S50000x32x64_2_0_n_n_0_2_164_wf
def gather_S50000x192_S1024x1_S1024x192_1_0_n_n_0_1_1192 : GatherDims S50000x192 S1024x1 S1024x192 where
  offsetDims := [1]
  collapsedSliceDims := [0]
  operandBatchingDims := []
  startIndicesBatchingDims := []
  startIndexMap := [0]
  indexVectorDim := 1
  sliceSizes := ![1, 192]
  wf := gather_S50000x192_S1024x1_S1024x192_1_0_n_n_0_1_1192_wf
def gather_S50000x32_S1024x1_S1024x32_1_0_n_n_0_1_132 : GatherDims S50000x32 S1024x1 S1024x32 where
  offsetDims := [1]
  collapsedSliceDims := [0]
  operandBatchingDims := []
  startIndicesBatchingDims := []
  startIndexMap := [0]
  indexVectorDim := 1
  sliceSizes := ![1, 32]
  wf := gather_S50000x32_S1024x1_S1024x32_1_0_n_n_0_1_132_wf
def gather_S50000x128_S1024x32x1_S1024x32x128_2_0_n_n_0_2_1128 : GatherDims S50000x128 S1024x32x1 S1024x32x128 where
  offsetDims := [2]
  collapsedSliceDims := [0]
  operandBatchingDims := []
  startIndicesBatchingDims := []
  startIndexMap := [0]
  indexVectorDim := 2
  sliceSizes := ![1, 128]
  wf := gather_S50000x128_S1024x32x1_S1024x32x128_2_0_n_n_0_2_1128_wf
def dot_S1024x448_S448x2_S1024x2_1_0_0_1_n_n : DotDims S1024x448 S448x2 S1024x2 where
  lhsContracting := [1]
  rhsContracting := [0]
  lhsNonContracting := [0]
  rhsNonContracting := [1]
  lhsBatch := []
  rhsBatch := []
  wf := dot_S1024x448_S448x2_S1024x2_1_0_0_1_n_n_wf

class Facts : Prop extends Facts₀ where

variable [Facts]
-- ==== Proof.KRun.lean ====
/-
  The idealized kernel's run with its result buffer named.

  The program is three kernel launches among two stretches of host operations. Its run folds the buffer contents
  through those five segments; after the last launch every unscoped buffer holds the last boundary's contents. Here
  that fact is stated for the result buffer beside the eight argument arrays: the run terminates, nothing faults,
  the result holds the last boundary's contents at its reference, and the arguments end as launched.
-/
import proofs.«177839_j28630251995136_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the argument arrays end as launched. -/
theorem run_out : θ_run defs (onTc (τ := τ) (main (F := F))) ⟨m, fun _ => 0, ρ⟩ (fun r => ∀ c : Dev nD,
      r.2.mem ((c.tc : Thread nD τ).loc main_v104) = W5 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v104 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.KRun

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibRelFuse.lean ====
/-
  The relation-fusion expression read at an entry.

  One relation contributes, for every node (a row), the concatenation along the feature axis of the mean of the
  node's neighbours under that relation and of the node's own row less that mean; the row is then scaled entry by
  entry by a weight vector spread over all rows, and the three relations' scaled rows are summed from zero.  The
  lemmas below read each layer of that expression at an entry (n, i): a column concatenation picks its piece by
  comparing the column with the first piece's width, a weight vector spread over the rows reads the vector's entry
  i whatever the row, and the elementwise operations act entry by entry.  Every extent is generic; the shape
  side conditions are hypotheses.
-/
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost

namespace Cert.RelFuse

open Idealize.ShloMosaic Idealize.ShloMosaic.ValueIdx

/-! ## A concatenation of two column blocks -/

section Layout
variable {α : Type}

/-- Two blocks of `A` and `B` columns side by side, read at row `n` and column `q`: the first block at `(n, q)` when
    `q < A`, else the second block at `(n, q - A)`. -/
theorem concat_cols_apply {N A B C : Nat} (hC : A + B = C)
    (x1 : (⟨2, ![N, A]⟩ : Shape).Idx → α) (x2 : (⟨2, ![N, B]⟩ : Shape).Idx → α)
    (h : Shape.Concatenates [(⟨2, ![N, A]⟩ : Shape), ⟨2, ![N, B]⟩] ⟨2, ![N, C]⟩ 1) (n : Fin N) (q : Fin C) :
    concatenate ⟨2, ![N, C]⟩ 1 [⟨_, x1⟩, ⟨_, x2⟩] h (ix2 n q)
      = if hq : q.val < A then x1 (ix2 n ⟨q.val, hq⟩) else x2 (ix2 n ⟨q.val - A, by omega⟩) := by
  by_cases hq : q.val < A
  · rw [dif_pos hq]
    refine concatenate_pair_apply_left (1 : Fin 2) x1 x2 h (ix2 n q) rfl (ix2 n ⟨q.val, hq⟩) ?_
    intro b
    match b with
    | ⟨0, _⟩ => rfl
    | ⟨1, _⟩ => rfl
  · rw [dif_neg hq]
    refine concatenate_pair_apply_right (1 : Fin 2) x1 x2 h (ix2 n q) rfl rfl (ix2 n ⟨q.val - A, by omega⟩) ?_ ?_
    · intro b hb
      match b, hb with
      | ⟨0, _⟩, _ => rfl
      | ⟨1, _⟩, hb => exact absurd rfl hb
    · show (q.val - A) + A = q.val
      omega

/-! ## A weight vector spread over the rows -/

/-- The vector made a one-row matrix and that row repeated `N` times reads, at `(n, i)`, the vector's entry `i`. -/
theorem weightRow_vector_apply {N D : Nat} (v : (⟨1, ![D]⟩ : Shape).Idx → α)
    (h1 : (⟨1, ![D]⟩ : Shape).ShapeCasts ⟨2, ![1, D]⟩) (hb : (⟨2, ![1, D]⟩ : Shape).Broadcasts ⟨2, ![N, D]⟩)
    (n : Fin N) (i : Fin D) :
    broadcastTo ⟨2, ![N, D]⟩ (shapeCast ⟨2, ![1, D]⟩ v h1) hb (ix2 n i) = v (ix1 i) := by
  rw [broadcastTo_1b_ab_apply, shapeCast_a_1a_apply]

/-- The same spread written as two broadcasts along named axes: the vector placed on axis 1 of a one-row matrix, and
    that matrix's row repeated. -/
theorem weightRow_host_apply {N D : Nat} (v : (⟨1, ![D]⟩ : Shape).Idx → α)
    (hb1 : (⟨1, ![D]⟩ : Shape).BroadcastsInDim ⟨2, ![1, D]⟩ ![1])
    (hb2 : (⟨2, ![1, D]⟩ : Shape).BroadcastsInDim ⟨2, ![N, D]⟩ ![0, 1])
    (n : Fin N) (i : Fin D) :
    broadcastInDim ⟨2, ![N, D]⟩ ![0, 1] hb2 (broadcastInDim ⟨2, ![1, D]⟩ ![1] hb1 v) (ix2 n i) = v (ix1 i) := by
  rw [broadcastInDim_oneRow_apply]
  refine broadcastInDim_apply ![1] hb1 v (ix2 (0 : Fin 1) i) (ix1 i) ?_
  intro a
  match a with
  | ⟨0, _⟩ =>
    show i.val = if D = 1 then 0 else i.val
    by_cases hD : D = 1
    · rw [if_pos hD]; have := i.isLt; omega
    · rw [if_neg hD]

end Layout

/-! ## One relation's row -/

/-- One relation's row at node `n`, entry `i`: the neighbour mean `m` on the first `d` entries, the node's own row `st`
    less that mean on the last `d`. -/
noncomputable def pairAt {N d D : Nat} (hD : d + d = D) (m st : (⟨2, ![N, d]⟩ : Shape).Idx → EReal) (n : Fin N) (i : Fin D) : EReal :=
  if h : i.val < d then m (ix2 n ⟨i.val, h⟩) else st (ix2 n ⟨i.val - d, by omega⟩) - m (ix2 n ⟨i.val - d, by omega⟩)

/-- On the first `d` entries the row is the mean. -/
theorem pairAt_of_lt {N d D : Nat} (hD : d + d = D) (m st : (⟨2, ![N, d]⟩ : Shape).Idx → EReal) (n : Fin N) (i : Fin D)
    (h : i.val < d) : pairAt hD m st n i = m (ix2 n ⟨i.val, h⟩) := by
  unfold pairAt; rw [dif_pos h]

/-- On the last `d` entries the row is the own row less the mean, both read `d` entries back. -/
theorem pairAt_of_ge {N d D : Nat} (hD : d + d = D) (m st : (⟨2, ![N, d]⟩ : Shape).Idx → EReal) (n : Fin N) (i : Fin D)
    (h : ¬ i.val < d) :
    pairAt hD m st n i = st (ix2 n ⟨i.val - d, by omega⟩) - m (ix2 n ⟨i.val - d, by omega⟩) := by
  unfold pairAt; rw [dif_neg h]

/-- The bit pattern of all zeros denotes zero. -/
theorem ofBits_f32_zero : Ideal.ofBits .f32 0x00000000#32 = (0 : EReal) := by
  simp [Ideal.ofBits, Ideal.ieee]

/-- The concatenation of the mean and of the own row less the mean is that row. -/
theorem concat_pair_apply {N d D : Nat} (hD : d + d = D) (m st : FVec Ideal ⟨2, ![N, d]⟩ .f32)
    (h : Shape.Concatenates [(⟨2, ![N, d]⟩ : Shape), ⟨2, ![N, d]⟩] ⟨2, ![N, D]⟩ 1) (n : Fin N) (i : Fin D) :
    concatenate ⟨2, ![N, D]⟩ 1 [⟨_, m⟩, ⟨_, subf st m⟩] h (ix2 n i) = pairAt hD m st n i := by
  rw [concat_cols_apply hD]
  rfl

/-! ## The fused sum of three relations -/

/-- The three relations' rows, each scaled by its weight vector spread over the rows, summed from zero: the
    spelling with a splat, a shape cast and a row broadcast. -/
theorem fused_vector_apply {N d D : Nat} (hD : d + d = D)
    (m0 m1 m2 st : FVec Ideal ⟨2, ![N, d]⟩ .f32) (v0 v1 v2 : FVec Ideal ⟨1, ![D]⟩ .f32)
    (hc : Shape.Concatenates [(⟨2, ![N, d]⟩ : Shape), ⟨2, ![N, d]⟩] ⟨2, ![N, D]⟩ 1)
    (h1 : (⟨1, ![D]⟩ : Shape).ShapeCasts ⟨2, ![1, D]⟩) (hb : (⟨2, ![1, D]⟩ : Shape).Broadcasts ⟨2, ![N, D]⟩)
    (n : Fin N) (i : Fin D) :
    addf (addf (addf (broadcast ⟨2, ![N, D]⟩ (Scalar.ofBits (F := Ideal) .f32 0x00000000#32))
        (mulf (concatenate ⟨2, ![N, D]⟩ 1 [⟨_, m0⟩, ⟨_, subf st m0⟩] hc)
          (broadcastTo ⟨2, ![N, D]⟩ (shapeCast ⟨2, ![1, D]⟩ v0 h1) hb)))
        (mulf (concatenate ⟨2, ![N, D]⟩ 1 [⟨_, m1⟩, ⟨_, subf st m1⟩] hc)
          (broadcastTo ⟨2, ![N, D]⟩ (shapeCast ⟨2, ![1, D]⟩ v1 h1) hb)))
        (mulf (concatenate ⟨2, ![N, D]⟩ 1 [⟨_, m2⟩, ⟨_, subf st m2⟩] hc)
          (broadcastTo ⟨2, ![N, D]⟩ (shapeCast ⟨2, ![1, D]⟩ v2 h1) hb)) (ix2 n i)
      = ((Ideal.ofBits .f32 0x00000000#32 + pairAt hD m0 st n i * v0 (ix1 i)) + pairAt hD m1 st n i * v1 (ix1 i))
          + pairAt hD m2 st n i * v2 (ix1 i) := by
  simp only [addf_apply, mulf_apply, broadcast_apply, concat_pair_apply hD, weightRow_vector_apply]
  rfl

/-- The same sum in the spelling with a broadcast scalar constant and broadcasts along named axes. -/
theorem fused_host_apply {N d D : Nat} (hD : d + d = D)
    (m0 m1 m2 st : FVec Ideal ⟨2, ![N, d]⟩ .f32) (v0 v1 v2 : FVec Ideal ⟨1, ![D]⟩ .f32)
    (hc : Shape.Concatenates [(⟨2, ![N, d]⟩ : Shape), ⟨2, ![N, d]⟩] ⟨2, ![N, D]⟩ 1)
    (hb0 : (⟨0, ![]⟩ : Shape).BroadcastsInDim ⟨2, ![N, D]⟩ ![])
    (hb1 : (⟨1, ![D]⟩ : Shape).BroadcastsInDim ⟨2, ![1, D]⟩ ![1])
    (hb2 : (⟨2, ![1, D]⟩ : Shape).BroadcastsInDim ⟨2, ![N, D]⟩ ![0, 1])
    (n : Fin N) (i : Fin D) :
    addf (addf (addf (broadcastInDim ⟨2, ![N, D]⟩ ![] hb0 (constant (F := Ideal) ⟨0, ![]⟩ .f32 0x00000000#32))
        (mulf (concatenate ⟨2, ![N, D]⟩ 1 [⟨_, m0⟩, ⟨_, subf st m0⟩] hc)
          (broadcastInDim ⟨2, ![N, D]⟩ ![0, 1] hb2 (broadcastInDim ⟨2, ![1, D]⟩ ![1] hb1 v0))))
        (mulf (concatenate ⟨2, ![N, D]⟩ 1 [⟨_, m1⟩, ⟨_, subf st m1⟩] hc)
          (broadcastInDim ⟨2, ![N, D]⟩ ![0, 1] hb2 (broadcastInDim ⟨2, ![1, D]⟩ ![1] hb1 v1))))
        (mulf (concatenate ⟨2, ![N, D]⟩ 1 [⟨_, m2⟩, ⟨_, subf st m2⟩] hc)
          (broadcastInDim ⟨2, ![N, D]⟩ ![0, 1] hb2 (broadcastInDim ⟨2, ![1, D]⟩ ![1] hb1 v2))) (ix2 n i)
      = ((Ideal.ofBits .f32 0x00000000#32 + pairAt hD m0 st n i * v0 (ix1 i)) + pairAt hD m1 st n i * v1 (ix1 i))
          + pairAt hD m2 st n i * v2 (ix1 i) := by
  simp only [addf_apply, mulf_apply, concat_pair_apply hD]
  rw [weightRow_host_apply v0 hb1 hb2 n i, weightRow_host_apply v1 hb1 hb2 n i, weightRow_host_apply v2 hb1 hb2 n i,
    broadcastInDim_scalar_apply hb0]
  rfl

end Cert.RelFuse
-- ==== Proof.Spec.lean ====
/-
  The functions the two programs compute, index by index: the plain matrix product and the relation-fusion layer.

  Entry (p, c) of the product of an n × K matrix with a K × M matrix is the sum over k of l (p, k) · r (k, c). On the
  extended reals this one function is what a blocked matrix unit computes, block of rows by block of rows, and what
  the host's whole-array contraction computes.
-/
import Idealize.ShloMosaic.Lib.ValueIdx
import Idealize.ShloMosaic.PureOps.Ideal
import proofs.«177839_j28630251995136_1_alg».proof.Proof.LibRelFuse

noncomputable section

open scoped BigOperators

namespace Cert.Spec

open Idealize.ShloMosaic Idealize.ShloMosaic.ValueIdx Cert.RelFuse

/-- Rows of `l` against columns of `r`. -/
def rowsDot {n K M : Nat} (l : (⟨2, ![n, K]⟩ : Shape).Idx → EReal) (r : (⟨2, ![K, M]⟩ : Shape).Idx → EReal) :
    (⟨2, ![n, M]⟩ : Shape).Idx → EReal :=
  fun i => ∑ k : Fin K, l (ix2 ⟨(i 0).val, idx2_lt0 i⟩ k) * r (ix2 k ⟨(i 1).val, idx2_lt1 i⟩)

theorem rowsDot_apply {n K M : Nat} (l : (⟨2, ![n, K]⟩ : Shape).Idx → EReal) (r : (⟨2, ![K, M]⟩ : Shape).Idx → EReal)
    (p : Fin n) (c : Fin M) : rowsDot l r (ix2 p c) = ∑ k : Fin K, l (ix2 p k) * r (ix2 k c) := rfl

/-- The float zero the weighted sum starts from. -/
abbrev z32 : EReal := Ideal.ofBits .f32 0x00000000#32

/-- The three relations' rows fused: each weighted, column by column, by its relation's column of the weight matrix w,
    and added in the order 0, 1, 2 onto the float zero. -/
def fusedAt {N d D : Nat} (hD : d + d = D) (m0 m1 m2 st : (⟨2, ![N, d]⟩ : Shape).Idx → EReal)
    (w : (⟨2, ![D, 3]⟩ : Shape).Idx → EReal) (n : Fin N) (i : Fin D) : EReal :=
  ((z32 + pairAt hD m0 st n i * w (ix2 i (0 : Fin 3))) + pairAt hD m1 st n i * w (ix2 i (1 : Fin 3)))
    + pairAt hD m2 st n i * w (ix2 i (2 : Fin 3))

/-- A layer's output row: the node's previous features sf in the first e columns, then the fused row. -/
def layerAt {N d D e C : Nat} (hD : d + d = D) (hC : e + D = C) (sf : (⟨2, ![N, e]⟩ : Shape).Idx → EReal)
    (m0 m1 m2 st : (⟨2, ![N, d]⟩ : Shape).Idx → EReal) (w : (⟨2, ![D, 3]⟩ : Shape).Idx → EReal) (n : Fin N) (j : Fin C) : EReal :=
  if h : j.val < e then sf (ix2 n ⟨j.val, h⟩) else fusedAt hD m0 m1 m2 st w n ⟨j.val - e, by omega⟩

/-- The layer's output as an array. -/
def layerArr {N d D e C : Nat} (hD : d + d = D) (hC : e + D = C) (sf : (⟨2, ![N, e]⟩ : Shape).Idx → EReal)
    (m0 m1 m2 st : (⟨2, ![N, d]⟩ : Shape).Idx → EReal) (w : (⟨2, ![D, 3]⟩ : Shape).Idx → EReal) :
    (⟨2, ![N, C]⟩ : Shape).Idx → EReal :=
  fun j => layerAt hD hC sf m0 m1 m2 st w ⟨(j 0).val, idx2_lt0 j⟩ ⟨(j 1).val, idx2_lt1 j⟩

theorem layerArr_apply {N d D e C : Nat} (hD : d + d = D) (hC : e + D = C) (sf : (⟨2, ![N, e]⟩ : Shape).Idx → EReal)
    (m0 m1 m2 st : (⟨2, ![N, d]⟩ : Shape).Idx → EReal) (w : (⟨2, ![D, 3]⟩ : Shape).Idx → EReal) (n : Fin N) (j : Fin C) :
    layerArr hD hC sf m0 m1 m2 st w (ix2 n j) = layerAt hD hC sf m0 m1 m2 st w n j := rfl

/-- The last layer's output: the fused rows against the 448 × 2 weight matrix, plus the logarithm of the prior. -/
def headArr {N K M : Nat} (h2 : (⟨2, ![N, K]⟩ : Shape).Idx → EReal) (lw : (⟨2, ![K, M]⟩ : Shape).Idx → EReal)
    (pr : (⟨1, ![M]⟩ : Shape).Idx → EReal) : (⟨2, ![N, M]⟩ : Shape).Idx → EReal :=
  fun j => rowsDot h2 lw j + Ideal.log (pr (ix1 ⟨(j 1).val, idx2_lt1 j⟩))

theorem headArr_apply {N K M : Nat} (h2 : (⟨2, ![N, K]⟩ : Shape).Idx → EReal) (lw : (⟨2, ![K, M]⟩ : Shape).Idx → EReal)
    (pr : (⟨1, ![M]⟩ : Shape).Idx → EReal) (n : Fin N) (c : Fin M) :
    headArr h2 lw pr (ix2 n c) = (∑ k : Fin K, h2 (ix2 n k) * lw (ix2 k c)) + Ideal.log (pr (ix1 c)) := rfl

end Cert.Spec

end
-- ==== Proof.Region0.lean ====
/-
  The first launch: a matrix product computed block of rows by block of rows.

  The grid has five points; point t multiplies rows 10000 t … 10000 t + 9999 of the 50000 × 25 feature matrix by the
  whole 25 × 64 weight matrix and writes rows 10000 t … of the 50000 × 64 result. The blocks tile the result, so the
  array the launch leaves is the plain matrix product of the two arrays it was entered with.
-/
import proofs.«177839_j28630251995136_1_alg».proof.Proof.Gen.KernelIdeal.Frame
import proofs.«177839_j28630251995136_1_alg».proof.Proof.LibPlainDot
import proofs.«177839_j28630251995136_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The block product at an entry: a plain sum over the 25 contracted positions. -/
theorem pay_apply (x0 : Vec Ideal S10000x25 .f32) (x1 : Vec Ideal S25x64 .f32) (p : Fin 10000) (q : Fin 64) :
    k0_pay1 x0 x1 (ix2 p q) = ∑ k : Fin 25, x0 (ix2 p k) * x1 (ix2 k q) := by
  unfold k0_pay1
  exact Cert.PlainDot.matmul_zero_apply dot_S10000x25_S25x64_S10000x64_1_0_0_1_n_n rfl rfl (fun _ _ => rfl) (fun _ _ => rfl)
    (fun _ _ => rfl) (fun _ _ => rfl) none _ _ p q

/-- The printed index maps over the grid: the feature and result windows move with the point along the rows, the
    weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 10000 t … of the feature array. -/
theorem iblk_feat (c : Dev nD) (t : Fin cfg0.N) (x : S10000x25.Idx) (k : S50000x25.Idx)
    (hk0 : (k 0).val = 10000 * t.val + (x 0).val) (hk1 : (k 1).val = (x 1).val) :
    (iblk0 V c 0 t : Vec Ideal S10000x25 .f32) x = (V c main_arg0 : S50000x25.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 25 + 1 * (x 1).val = (k 1).val; rw [e1, hk1]; omega

/-- The weight window's block at every point is the whole weight array. -/
theorem iblk_wt (c : Dev nD) (t : Fin cfg0.N) (x : S25x64.Idx) :
    (iblk0 V c 1 t : Vec Ideal S25x64 .f32) x = (V c main_arg1 : S25x64.Idx → EReal) x := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t 0 * 25 + 1 * (x 0).val = (x 0).val; rw [e2]; omega
  | ⟨1, _⟩ => show win0_1.index t 1 * 64 + 1 * (x 1).val = (x 1).val; rw [e3]; omega

/-- Entry x of the block product at point t is entry i of the whole product, i being x moved down 10000 t rows. -/
theorem block_entry (c : Dev nD) (t : Fin cfg0.N) (x : S10000x64.Idx) (i : S50000x64.Idx)
    (h0 : (i 0).val = 10000 * t.val + (x 0).val) (h1 : (i 1).val = (x 1).val) :
    k0_pay1 (iblk0 V c 0 t) (iblk0 V c 1 t) x = rowsDot (V c main_arg0) (V c main_arg1) i := by
  obtain ⟨p, q, rfl⟩ : ∃ (p : Fin 10000) (q : Fin 64), x = ix2 p q := ⟨x 0, x 1, eq_ix2 x⟩
  obtain ⟨n, q', rfl⟩ : ∃ (n : Fin 50000) (q' : Fin 64), i = ix2 n q' := ⟨i 0, i 1, eq_ix2 i⟩
  have hq : q' = q := Fin.ext h1
  subst hq
  refine (pay_apply (iblk0 V c 0 t) (iblk0 V c 1 t) p q').trans ?_
  rw [rowsDot_apply]
  refine Finset.sum_congr rfl fun k _ => ?_
  rw [iblk_feat V c t (ix2 p k) (ix2 n k) h0 rfl, iblk_wt V c t (ix2 k q')]

/-- What point t writes back is block t of the plain product of the two arrays the launch was entered with. -/
theorem flushed_eq (c : Dev nD) (t : Fin cfg0.N) :
    (dat0 V c).flushed 2 t = ((cfg0.win 2).blk t).view.read (Elt Ideal) (rowsDot (V c main_arg0) (V c main_arg1)) := by
  show (cfg0.win 2).cut (grid0.coords t) ((dat0 V c).after 2 t) = _
  rw [after0_2]
  unfold out0_2
  rw [View.canon_unit_zero hz]
  simp only [View.ld_unit_zero (S := S10000x25) hz, View.ld_unit_zero (S := S25x64) hz]
  obtain ⟨-, -, -, -, e4, e5⟩ := idx_facts t
  funext j
  refine block_entry V c t j (((cfg0.win 2).blk t).view.emb j) ?_ ?_
  · show win0_2.index t 0 * 10000 + 1 * (j 0).val = _; rw [e4]; omega
  · show win0_2.index t 1 * 64 + 1 * (j 1).val = _; rw [e5]; omega

/-- An index of the result array is in point t's block iff each coordinate is in the block's range on its axis. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- The five row blocks tile the result: row r is in the block of point r / 10000. -/
theorem cover (i : S50000x64.Idx) : ∃ t : Fin cfg0.N, (cfg0.win 2).flush t = true ∧ i ∈ ((cfg0.win 2).blk t).view.set := by
  have hN : cfg0.N = 5 := N_0
  have hi0 : (i 0).val < 50000 := (i 0).isLt
  have hi1 : (i 1).val < 64 := (i 1).isLt
  refine ⟨⟨(i 0).val / 10000, by rw [hN]; omega⟩, flush0_2 _, ?_⟩
  rw [mem_blk]
  obtain ⟨-, -, -, -, e4, e5⟩ := idx_facts ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; dsimp only; omega
  | ⟨1, _⟩ => show win0_2.index _ (1 : Fin 2) * 64 ≤ (i 1).val ∧ (i 1).val < win0_2.index _ (1 : Fin 2) * 64 + 64; rw [e5]; omega

/-- THE ARRAY the first launch leaves: the plain product of the feature array and the weight array it was entered with. -/
theorem array (c : Dev nD) : (dat0 V c).arrAt 2 cfg0.N = rowsDot (V c main_arg0) (V c main_arg1) :=
  (dat0 V c).arrAt_eq_of_cover 2 _ (fun t _ => flushed_eq V c t) cover

end Cert.KernelIdeal.Region0

end
-- ==== Proof.LibColumnRead.lean ====
/-
  One column of a matrix taken out as a vector, read at an entry.

  A program takes column r of an A × n matrix by slicing out the A × 1 block at column r and casting it to a vector
  of A entries. Entry i of that vector is the matrix's entry (i, r).
-/
import Idealize.ShloMosaic.Lib.ValueIdx
import Idealize.ShloMosaic.Lib.Pipeline.Value

namespace Cert.ColumnRead

open Idealize.ShloMosaic Idealize.ShloMosaic.ValueIdx

/-- Column r of W, as a vector, at entry i: W (i, r). -/
theorem weightCol_apply {α : Type} {A n : Nat} (r : Nat) (hr : r < n) (W : (⟨2, ![A, n]⟩ : Shape).Idx → α)
    (hs : (⟨2, ![A, n]⟩ : Shape).Slices ![0, r] ⟨2, ![A, 1]⟩) (hc : (⟨2, ![A, 1]⟩ : Shape).ShapeCasts ⟨1, ![A]⟩) (i : Fin A) :
    shapeCast ⟨1, ![A]⟩ (extractStridedSlice ⟨2, ![A, 1]⟩ ![0, r] W hs) hc (ix1 i) = W (ix2 i ⟨r, hr⟩) := by
  have e1 := shapeCast_apply (extractStridedSlice ⟨2, ![A, 1]⟩ ![0, r] W hs) hc (ix1 i) (ix2 i (0 : Fin 1)) (by
    rw [Shape.rowMajor_val_two, Shape.rowMajor_val_one]
    show i.val * 1 + 0 = i.val
    omega)
  have e2 := extractStridedSlice_apply ![0, r] W hs (ix2 i (0 : Fin 1)) (ix2 i ⟨r, hr⟩) (by
    intro a
    match a with
    | ⟨0, _⟩ => show i.val = 0 + i.val; omega
    | ⟨1, _⟩ => show r = r + 0; rfl)
  exact e1.trans e2

end Cert.ColumnRead
-- ==== Proof.Region1.lean ====
/-
  The second launch: the layer-1 relation fusion, computed block of rows by block of rows.

  The grid has ten points; point t reads rows 5000 t … 5000 t + 4999 of the three relations' neighbour means and of the
  layer-0 features, and the whole 128 × 3 matrix of relation scores. It turns the scores into weights by a softmax
  over each row, forms for each relation the row (mean, own − mean), weights it column by column, adds the three
  weighted rows from zero in the order 0, 1, 2, and writes (own features, fused row) into rows 5000 t … of the
  50000 × 192 result. Every output row depends only on the same row of the inputs and on the weights, and the blocks
  tile the result, so the array the launch leaves is the layer function of the arrays it was entered with.
-/
import proofs.«177839_j28630251995136_1_alg».proof.Proof.Gen.KernelIdeal.Frame
import proofs.«177839_j28630251995136_1_alg».proof.Proof.Spec
import proofs.«177839_j28630251995136_1_alg».proof.Proof.LibRelFuse
import proofs.«177839_j28630251995136_1_alg».proof.Proof.LibColumnRead
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Spec Cert.RelFuse Cert.ColumnRead

variable (V : (c : Dev nD) → (b : Ref sig .tc) → Buf (Elt Ideal) ((c : Thread nD τ).loc b))

theorem hz : (![0, 0] : Fin 2 → Nat) = fun _ => 0 := funext fun a => by fin_cases a <;> rfl

/-- The relation weights: the softmax over each row of the 128 × 3 score matrix, as the vector unit spells it. -/
def smK (a : Vec Ideal S128x3 .f32) : FVec Ideal S128x3 .f32 :=
  divf (exp (subf a (broadcastTo S128x3 (shapeCast S128x1 (maximumf (broadcast S128 (Scalar.ofBits .f32 0xFF800000#32)) (multiReduction .maximumf [1] S128 a 0xFF800000#32 reduces_S128x3_S128 (.inl rfl) rfl)) shapeCasts_S128_S128x1) broadcasts_S128x1_S128x3)))
    (broadcastTo S128x3 (shapeCast S128x1 (multiReduction .add [1] S128 (exp (subf a (broadcastTo S128x3 (shapeCast S128x1 (maximumf (broadcast S128 (Scalar.ofBits .f32 0xFF800000#32)) (multiReduction .maximumf [1] S128 a 0xFF800000#32 reduces_S128x3_S128 (.inl rfl) rfl)) shapeCasts_S128_S128x1) broadcasts_S128x1_S128x3))) 0x00000000#32 reduces_S128x3_S128 (.inl rfl) rfl) shapeCasts_S128_S128x1) broadcasts_S128x1_S128x3)

/-- The fused row at an entry. -/
theorem pay3_apply (x4 : Vec Ideal S128x3 .f32) (x3 x0 x1 x2 : Vec Ideal S5000x64 .f32) (p : Fin 5000) (i : Fin 128) :
    k1_pay3 x4 x3 x0 x1 x2 (ix2 p i) = fusedAt (rfl : 64 + 64 = 128) x0 x1 x2 x3 (smK x4) p i := by
  unfold k1_pay3 k1_pay2
  rw [fused_vector_apply (rfl : 64 + 64 = 128)]
  simp only [shapeCast_self]
  rw [weightCol_apply 0 (by decide) _ slices_S128x3_o0_0_S128x1 shapeCasts_S128x1_S128 i,
    weightCol_apply 1 (by decide) _ slices_S128x3_o0_1_S128x1 shapeCasts_S128x1_S128 i,
    weightCol_apply 2 (by decide) _ slices_S128x3_o0_2_S128x1 shapeCasts_S128x1_S128 i]
  rfl

/-- The stored block at an entry: the node's own features, then the fused row. -/
theorem pay_apply (x0 x1 x2 x3 : Vec Ideal S5000x64 .f32) (x4 : Vec Ideal S128x3 .f32) (p : Fin 5000) (j : Fin 192) :
    k1_pay1 (k1_pay2 x3) (k1_pay3 x4 x3 x0 x1 x2) (ix2 p j)
      = layerAt (rfl : 64 + 64 = 128) (rfl : 64 + 128 = 192) x3 x0 x1 x2 x3 (smK x4) p j := by
  unfold k1_pay1
  rw [concat_cols_apply (rfl : 64 + 128 = 192)]
  unfold layerAt
  by_cases hj : j.val < 64
  · rw [dif_pos hj, dif_pos hj]
    unfold k1_pay2
    rw [shapeCast_self]
  · rw [dif_neg hj, dif_neg hj]
    exact pay3_apply x4 x3 x0 x1 x2 p ⟨j.val - 64, by omega⟩

/-! ## The printed index maps over the grid -/

theorem idx_w0 : ∀ t : Fin cfg1.N, win1_0.index t (0 : Fin 2) = t.val ∧ win1_0.index t (1 : Fin 2) = 0 :=
  (by decide +kernel : ∀ t : Fin grid1.N, _)
theorem idx_w1 : ∀ t : Fin cfg1.N, win1_1.index t (0 : Fin 2) = t.val ∧ win1_1.index t (1 : Fin 2) = 0 :=
  (by decide +kernel : ∀ t : Fin grid1.N, _)
theorem idx_w2 : ∀ t : Fin cfg1.N, win1_2.index t (0 : Fin 2) = t.val ∧ win1_2.index t (1 : Fin 2) = 0 :=
  (by decide +kernel : ∀ t : Fin grid1.N, _)
theorem idx_w3 : ∀ t : Fin cfg1.N, win1_3.index t (0 : Fin 2) = t.val ∧ win1_3.index t (1 : Fin 2) = 0 :=
  (by decide +kernel : ∀ t : Fin grid1.N, _)
theorem idx_w4 : ∀ t : Fin cfg1.N, win1_4.index t (0 : Fin 2) = 0 ∧ win1_4.index t (1 : Fin 2) = 0 :=
  (by decide +kernel : ∀ t : Fin grid1.N, _)
theorem idx_w5 : ∀ t : Fin cfg1.N, win1_5.index t (0 : Fin 2) = t.val ∧ win1_5.index t (1 : Fin 2) = 0 :=
  (by decide +kernel : ∀ t : Fin grid1.N, _)

/-! ## The windows' blocks -/

/-- Window 0's block at point t is rows 5000 t … of the array it stages. -/
theorem iblk_rows0 (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c main_v12 : S50000x64.Idx → EReal) k := by
  obtain ⟨e0, e1⟩ := idx_w0 t
  unfold iblk1
  rw [View.read_apply]
  show V c main_v12 _ = V c main_v12 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- Window 1's block at point t is rows 5000 t … of the array it stages. -/
theorem iblk_rows1 (c : Dev nD) (t : Fin cfg1.N) (x : S5000x64.Idx) (k : S50000x64.Idx)
    (hk0 : (k 0).val = 5000 * t.val + (x 0).val) (hk1 : (k 1).val = (x 1).val) :
    (iblk1 V c 1 t : Vec Ideal S5000x64 .f32) x = (V c main_v24 : S50000x64.Idx → EReal) k := by
  obtain ⟨e0, e1⟩ := idx_w1 t
  unfold iblk1
  rw [View.read_apply]
  show V c main_v24 _ = V c main_v24 _
  congr 1
  funext a
  apply Fin.ext
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

/-- Window 2's block at point t is rows 5000 t … of the array it stages. -/
theorem iblk_rows2 (c : Dev nD) (t : Fin cfg1.N) (x : S5000x64.Idx) (k : S50000x64.Idx)
    (hk0 : (k 0).val = 5000 * t.val + (x 0).val) (hk1 : (k 1).val = (x 1).val) :
    (iblk1 V c 2 t : Vec Ideal S5000x64 .f32) x = (V c main_v36 : S50000x64.Idx → EReal) k := by
  obtain ⟨e0, e1⟩ := idx_w2 t
  unfold iblk1
  rw [View.read_apply]
  show V c main_v36 _ = V c main_v36 _
  congr 1
  funext a
  apply Fin.ext
  match a with
  | ⟨0, _⟩ => show win1_2.index t 0 * 5000 + 1 * (x 0).val = (k 0).val; rw [e0, hk0]; omega
  | ⟨1, _⟩ => show win1_2.index t 1 * 64 + 1 * (x 1).val = (k 1).val; rw [e1, hk1]; omega

/-- Window 3's block at point t is rows 5000 t … of the array it stages. -/
theorem iblk_rows3 (c : Dev nD) (t : Fin cfg1.N) (x : S5000x64.Idx) (k : S50000x64.Idx)
    (hk0 : (k 0).val = 5000 * t.val + (x 0).val) (hk1 : (k 1).val = (x 1).val) :
    (iblk1 V c 3 t : Vec Ideal S5000x64 .f32) x = (V c main_v0 : S50000x64.Idx → EReal) k := by
  obtain ⟨e0, e1⟩ := idx_w3 t
  unfold iblk1
  rw [View.read_apply]
  show V c main_v0 _ = V c main_v0 _
  congr 1
  funext a
  apply Fin.ext
  match a with
  | ⟨0, _⟩ => show win1_3.index t 0 * 5000 + 1 * (x 0).val = (k 0).val; rw [e0, hk0]; omega
  | ⟨1, _⟩ => show win1_3.index t 1 * 64 + 1 * (x 1).val = (k 1).val; rw [e1, hk1]; omega

/-- The score window's block at every point is the whole score matrix. -/
theorem iblk_scores (c : Dev nD) (t : Fin cfg1.N) (x : S128x3.Idx) :
    (iblk1 V c 4 t : Vec Ideal S128x3 .f32) x = (V c main_arg2 : S128x3.Idx → EReal) x := by
  obtain ⟨e0, e1⟩ := idx_w4 t
  unfold iblk1
  rw [View.read_apply]
  show V c main_arg2 _ = V c main_arg2 _
  congr 1
  funext a
  apply Fin.ext
  match a with
  | ⟨0, _⟩ => show win1_4.index t 0 * 128 + 1 * (x 0).val = (x 0).val; rw [e0]; omega
  | ⟨1, _⟩ => show win1_4.index t 1 * 3 + 1 * (x 1).val = (x 1).val; rw [e1]; omega

/-- Entry x of the block point t stores is entry i of the layer function of the whole arrays, i being x moved down
    5000 t rows. -/
theorem block_entry (c : Dev nD) (t : Fin cfg1.N) (x : S5000x192.Idx) (i : S50000x192.Idx)
    (h0 : (i 0).val = 5000 * t.val + (x 0).val) (h1 : (i 1).val = (x 1).val) :
    k1_pay1 (k1_pay2 (iblk1 V c 3 t)) (k1_pay3 (iblk1 V c 4 t) (iblk1 V c 3 t) (iblk1 V c 0 t) (iblk1 V c 1 t) (iblk1 V c 2 t)) x
      = layerArr (rfl : 64 + 64 = 128) (rfl : 64 + 128 = 192) (V c main_v0) (V c main_v12) (V c main_v24) (V c main_v36)
          (V c main_v0) (smK (V c main_arg2)) i := by
  obtain ⟨p, j, rfl⟩ : ∃ (p : Fin 5000) (j : Fin 192), x = ix2 p j := ⟨x 0, x 1, eq_ix2 x⟩
  obtain ⟨n, j', rfl⟩ : ∃ (n : Fin 50000) (j' : Fin 192), i = ix2 n j' := ⟨i 0, i 1, eq_ix2 i⟩
  have hj : j' = j := Fin.ext h1
  subst hj
  refine (pay_apply (iblk1 V c 0 t) (iblk1 V c 1 t) (iblk1 V c 2 t) (iblk1 V c 3 t) (iblk1 V c 4 t) p j').trans ?_
  rw [layerArr_apply]
  have e0 : ∀ q : Fin 64, (iblk1 V c 0 t : Vec Ideal S5000x64 .f32) (ix2 p q) = (V c main_v12 : S50000x64.Idx → EReal) (ix2 n q) :=
    fun q => iblk_rows0 V c t (ix2 p q) (ix2 n q) h0 rfl
  have e1 : ∀ q : Fin 64, (iblk1 V c 1 t : Vec Ideal S5000x64 .f32) (ix2 p q) = (V c main_v24 : S50000x64.Idx → EReal) (ix2 n q) :=
    fun q => iblk_rows1 V c t (ix2 p q) (ix2 n q) h0 rfl
  have e2 : ∀ q : Fin 64, (iblk1 V c 2 t : Vec Ideal S5000x64 .f32) (ix2 p q) = (V c main_v36 : S50000x64.Idx → EReal) (ix2 n q) :=
    fun q => iblk_rows2 V c t (ix2 p q) (ix2 n q) h0 rfl
  have e3 : ∀ q : Fin 64, (iblk1 V c 3 t : Vec Ideal S5000x64 .f32) (ix2 p q) = (V c main_v0 : S50000x64.Idx → EReal) (ix2 n q) :=
    fun q => iblk_rows3 V c t (ix2 p q) (ix2 n q) h0 rfl
  have e4 : (iblk1 V c 4 t : Vec Ideal S128x3 .f32) = (V c main_arg2 : S128x3.Idx → EReal) := funext fun y => iblk_scores V c t y
  rw [e4]
  unfold layerAt fusedAt pairAt
  simp only [e0, e1, e2, e3]

/-- What point t writes back is block t of the layer function of the arrays the launch was entered with. -/
theorem flushed_eq (c : Dev nD) (t : Fin cfg1.N) :
    (dat1 V c).flushed 5 t = ((cfg1.win 5).blk t).view.read (Elt Ideal)
      (layerArr (rfl : 64 + 64 = 128) (rfl : 64 + 128 = 192) (V c main_v0) (V c main_v12) (V c main_v24) (V c main_v36)
          (V c main_v0) (smK (V c main_arg2))) := by
  show (cfg1.win 5).cut (grid1.coords t) ((dat1 V c).after 5 t) = _
  rw [after1_5]
  unfold out1_5
  rw [View.canon_unit_zero hz]
  simp only [View.ld_unit_zero (S := S5000x64) hz, View.ld_unit_zero (S := S128x3) hz]
  obtain ⟨e0, e1⟩ := idx_w5 t
  funext j
  refine block_entry V c t j (((cfg1.win 5).blk t).view.emb j) ?_ ?_
  · show win1_5.index t 0 * 5000 + 1 * (j 0).val = _; rw [e0]; omega
  · show win1_5.index t 1 * 192 + 1 * (j 1).val = _; rw [e1]; omega

/-- An index of the result array is in point t's block iff each coordinate is in the block's range on its axis. -/
theorem mem_blk (t : Fin cfg1.N) (i : S50000x192.Idx) :
    i ∈ ((cfg1.win 5).blk t).view.set ↔ ∀ a : Fin 2, win1_5.index t a * S5000x192.size a ≤ (i a).val ∧ (i a).val < win1_5.index t a * S5000x192.size a + S5000x192.size a := by
  show i ∈ ((View.whole main_v37).slice (win1_5.rect t)).set ↔ _
  rw [View.set_slice_whole, Rect.mem_set_unit]
  exact Iff.rfl

/-- The ten row blocks tile the result: row r is in the block of point r / 5000. -/
theorem cover (i : S50000x192.Idx) : ∃ t : Fin cfg1.N, (cfg1.win 5).flush t = true ∧ i ∈ ((cfg1.win 5).blk t).view.set := by
  have hN : cfg1.N = 10 := N_1
  have hi0 : (i 0).val < 50000 := (i 0).isLt
  have hi1 : (i 1).val < 192 := (i 1).isLt
  refine ⟨⟨(i 0).val / 5000, by rw [hN]; omega⟩, flush1_5 _, ?_⟩
  rw [mem_blk]
  obtain ⟨e0, e1⟩ := idx_w5 ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e0]; dsimp only; omega
  | ⟨1, _⟩ => show win1_5.index _ (1 : Fin 2) * 192 ≤ (i 1).val ∧ (i 1).val < win1_5.index _ (1 : Fin 2) * 192 + 192; rw [e1]; omega

/-- THE ARRAY the second launch leaves: the layer function of the features, the three neighbour means and the
    softmax of the scores it was entered with. -/
theorem array (c : Dev nD) : (dat1 V c).arrAt 5 cfg1.N
    = layerArr (rfl : 64 + 64 = 128) (rfl : 64 + 128 = 192) (V c main_v0) (V c main_v12) (V c main_v24) (V c main_v36)
        (V c main_v0) (smK (V c main_arg2)) :=
  (dat1 V c).arrAt_eq_of_cover 5 _ (fun t _ => flushed_eq V c t) cover

end Cert.KernelIdeal.Region1

end
-- ==== Proof.Region2.lean ====
/-
  The third launch: the layer-2 relation fusion, the final matrix product and the log prior, block of rows by block of
  rows.

  The grid has four points; point t reads rows 256 t … 256 t + 255 of the three relations' neighbour means, of the batch
  nodes' 128-column tails and of their 192-column layer-1 rows, and the whole 256 × 3 score matrix, 448 × 2 weight
  matrix and 2-entry prior. It fuses the relations as in layer 1 (softmax weights, rows (mean, own − mean), weighted and
  added from zero in the order 0, 1, 2), puts the layer-1 row in front, multiplies the 448-entry row by the weight
  matrix and adds the logarithm of the prior. Every output row depends only on the same row of the inputs, and the
  blocks tile the 1024 × 2 result.
-/
import proofs.«177839_j28630251995136_1_alg».proof.Proof.Gen.KernelIdeal.Frame
import proofs.«177839_j28630251995136_1_alg».proof.Proof.Spec
import proofs.«177839_j28630251995136_1_alg».proof.Proof.LibRelFuse
import proofs.«177839_j28630251995136_1_alg».proof.Proof.LibColumnRead
import proofs.«177839_j28630251995136_1_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Spec Cert.RelFuse Cert.ColumnRead

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The fused row at an entry; the relation weights are the softmax `k2_pay2` of the scores. -/
theorem fused_apply (x5 : Vec Ideal S256x3 .f32) (x3 x0 x1 x2 : Vec Ideal S256x128 .f32) (p : Fin 256) (i : Fin 256) :
    addf (k2_pay5 x5 x3 x0 x1) (mulf (k2_pay6 x3 x2)
        (broadcastTo S256x256 (shapeCast S1x256 (k2_pay7 x5) shapeCasts_S256_S1x256) broadcasts_S1x256_S256x256)) (ix2 p i)
      = fusedAt (rfl : 128 + 128 = 256) x0 x1 x2 x3 (k2_pay2 x5) p i := by
  unfold k2_pay5 k2_pay6 k2_pay7 k2_pay3
  simp only [addf_apply, mulf_apply, broadcast_apply, concat_pair_apply (rfl : 128 + 128 = 256), weightRow_vector_apply]
  simp only [shapeCast_self]
  rw [weightCol_apply 0 (by decide) _ slices_S256x3_o0_0_S256x1 shapeCasts_S256x1_S256 i,
    weightCol_apply 1 (by decide) _ slices_S256x3_o0_1_S256x1 shapeCasts_S256x1_S256 i,
    weightCol_apply 2 (by decide) _ slices_S256x3_o0_2_S256x1 shapeCasts_S256x1_S256 i]
  rfl

/-- The 448-entry row the matrix product consumes: the layer-1 row, then the fused row. -/
theorem row_apply (x0 x1 x2 x3 : Vec Ideal S256x128 .f32) (x4 : Vec Ideal S256x192 .f32) (x5 : Vec Ideal S256x3 .f32)
    (p : Fin 256) (k : Fin 448) :
    concatenate S256x448 1 [⟨S256x192, k2_pay4 x4⟩, ⟨S256x256, addf (k2_pay5 x5 x3 x0 x1) (mulf (k2_pay6 x3 x2)
        (broadcastTo S256x256 (shapeCast S1x256 (k2_pay7 x5) shapeCasts_S256_S1x256) broadcasts_S1x256_S256x256))⟩]
        concatenates_S256x192_S256x256_S256x448_d1 (ix2 p k)
      = layerAt (rfl : 128 + 128 = 256) (rfl : 192 + 256 = 448) x4 x0 x1 x2 x3 (k2_pay2 x5) p k := by
  rw [concat_cols_apply (rfl : 192 + 256 = 448)]
  unfold layerAt
  by_cases hk : k.val < 192
  · rw [dif_pos hk, dif_pos hk]
    unfold k2_pay4
    rw [shapeCast_self]
  · rw [dif_neg hk, dif_neg hk]
    exact fused_apply x5 x3 x0 x1 x2 p ⟨k.val - 192, by omega⟩

/-- The stored block at an entry: the row against column c of the weight matrix, plus the logarithm of the prior's entry c. -/
theorem pay_apply (x0 x1 x2 x3 : Vec Ideal S256x128 .f32) (x4 : Vec Ideal S256x192 .f32) (x5 : Vec Ideal S256x3 .f32)
    (x6 : Vec Ideal S448x2 .f32) (x7 : Vec Ideal S2 .f32) (p : Fin 256) (c : Fin 2) :
    k2_pay1 (k2_pay4 x4) (k2_pay5 x5 x3 x0 x1) (k2_pay6 x3 x2) (k2_pay7 x5) x6 x7 (ix2 p c)
      = (∑ k : Fin 448, layerAt (rfl : 128 + 128 = 256) (rfl : 192 + 256 = 448) x4 x0 x1 x2 x3 (k2_pay2 x5) p k * x6 (ix2 k c))
          + Ideal.log (x7 (ix1 c)) := by
  unfold k2_pay1
  rw [addf_apply, weightRow_vector_apply]
  refine congrArg₂ (· + ·) ?_ rfl
  refine (Cert.PlainDot.matmul_zero_apply dot_S256x448_S448x2_S256x2_1_0_0_1_n_n rfl rfl (fun _ _ => rfl) (fun _ _ => rfl)
    (fun _ _ => rfl) (fun _ _ => rfl) none _ _ p c).trans ?_
  refine Finset.sum_congr rfl fun k _ => ?_
  exact congrArg (· * x6 (ix2 k c)) (row_apply x0 x1 x2 x3 x4 x5 p k)

/-! ## The printed index maps over the grid -/

theorem idx_w0 : ∀ t : Fin cfg2.N, win2_0.index t (0 : Fin 2) = t.val ∧ win2_0.index t (1 : Fin 2) = 0 :=
  (by decide +kernel : ∀ t : Fin grid2.N, _)
theorem idx_w1 : ∀ t : Fin cfg2.N, win2_1.index t (0 : Fin 2) = t.val ∧ win2_1.index t (1 : Fin 2) = 0 :=
  (by decide +kernel : ∀ t : Fin grid2.N, _)
theorem idx_w2 : ∀ t : Fin cfg2.N, win2_2.index t (0 : Fin 2) = t.val ∧ win2_2.index t (1 : Fin 2) = 0 :=
  (by decide +kernel : ∀ t : Fin grid2.N, _)
theorem idx_w3 : ∀ t : Fin cfg2.N, win2_3.index t (0 : Fin 2) = t.val ∧ win2_3.index t (1 : Fin 2) = 0 :=
  (by decide +kernel : ∀ t : Fin grid2.N, _)
theorem idx_w4 : ∀ t : Fin cfg2.N, win2_4.index t (0 : Fin 2) = t.val ∧ win2_4.index t (1 : Fin 2) = 0 :=
  (by decide +kernel : ∀ t : Fin grid2.N, _)
theorem idx_w5 : ∀ t : Fin cfg2.N, win2_5.index t (0 : Fin 2) = 0 ∧ win2_5.index t (1 : Fin 2) = 0 :=
  (by decide +kernel : ∀ t : Fin grid2.N, _)
theorem idx_w6 : ∀ t : Fin cfg2.N, win2_6.index t (0 : Fin 2) = 0 ∧ win2_6.index t (1 : Fin 2) = 0 :=
  (by decide +kernel : ∀ t : Fin grid2.N, _)
theorem idx_w7 : ∀ t : Fin cfg2.N, win2_7.index t (0 : Fin 1) = 0 :=
  (by decide +kernel : ∀ t : Fin grid2.N, _)
theorem idx_w8 : ∀ t : Fin cfg2.N, win2_8.index t (0 : Fin 2) = t.val ∧ win2_8.index t (1 : Fin 2) = 0 :=
  (by decide +kernel : ∀ t : Fin grid2.N, _)

/-! ## The windows' blocks -/

/-- Window 0's block at point t is rows 256 t … of the array it stages. -/
theorem iblk_rows0 (c : Dev nD) (t : Fin cfg2.N) (x : S256x128.Idx) (k : S1024x128.Idx)
    (hk0 : (k 0).val = 256 * t.val + (x 0).val) (hk1 : (k 1).val = (x 1).val) :
    (iblk2 V c 0 t : Vec Ideal S256x128 .f32) x = (V c main_v65 : S1024x128.Idx → EReal) k := by
  obtain ⟨e0, e1⟩ := idx_w0 t
  unfold iblk2
  rw [View.read_apply]
  show V c main_v65 _ = V c main_v65 _
  congr 1
  funext a
  apply Fin.ext
  match a with
  | ⟨0, _⟩ => show win2_0.index t 0 * 256 + 1 * (x 0).val = (k 0).val; rw [e0, hk0]; omega
  | ⟨1, _⟩ => show win2_0.index t 1 * 128 + 1 * (x 1).val = (k 1).val; rw [e1, hk1]; omega

/-- Window 1's block at point t is rows 256 t … of the array it stages. -/
theorem iblk_rows1 (c : Dev nD) (t : Fin cfg2.N) (x : S256x128.Idx) (k : S1024x128.Idx)
    (hk0 : (k 0).val = 256 * t.val + (x 0).val) (hk1 : (k 1).val = (x 1).val) :
    (iblk2 V c 1 t : Vec Ideal S256x128 .f32) x = (V c main_v84 : S1024x128.Idx → EReal) k := by
  obtain ⟨e0, e1⟩ := idx_w1 t
  unfold iblk2
  rw [View.read_apply]
  show V c main_v84 _ = V c main_v84 _
  congr 1
  funext a
  apply Fin.ext
  match a with
  | ⟨0, _⟩ => show win2_1.index t 0 * 256 + 1 * (x 0).val = (k 0).val; rw [e0, hk0]; omega
  | ⟨1, _⟩ => show win2_1.index t 1 * 128 + 1 * (x 1).val = (k 1).val; rw [e1, hk1]; omega

/-- Window 2's block at point t is rows 256 t … of the array it stages. -/
theorem iblk_rows2 (c : Dev nD) (t : Fin cfg2.N) (x : S256x128.Idx) (k : S1024x128.Idx)
    (hk0 : (k 0).val = 256 * t.val + (x 0).val) (hk1 : (k 1).val = (x 1).val) :
    (iblk2 V c 2 t : Vec Ideal S256x128 .f32) x = (V c main_v103 : S1024x128.Idx → EReal) k := by
  obtain ⟨e0, e1⟩ := idx_w2 t
  unfold iblk2
  rw [View.read_apply]
  show V c main_v103 _ = V c main_v103 _
  congr 1
  funext a
  apply Fin.ext
  match a with
  | ⟨0, _⟩ => show win2_2.index t 0 * 256 + 1 * (x 0).val = (k 0).val; rw [e0, hk0]; omega
  | ⟨1, _⟩ => show win2_2.index t 1 * 128 + 1 * (x 1).val = (k 1).val; rw [e1, hk1]; omega

/-- Window 3's block at point t is rows 256 t … of the array it stages. -/
theorem iblk_rows3 (c : Dev nD) (t : Fin cfg2.N) (x : S256x128.Idx) (k : S1024x128.Idx)
    (hk0 : (k 0).val = 256 * t.val + (x 0).val) (hk1 : (k 1).val = (x 1).val) :
    (iblk2 V c 3 t : Vec Ideal S256x128 .f32) x = (V c main_v46 : S1024x128.Idx → EReal) k := by
  obtain ⟨e0, e1⟩ := idx_w3 t
  unfold iblk2
  rw [View.read_apply]
  show V c main_v46 _ = V c main_v46 _
  congr 1
  funext a
  apply Fin.ext
  match a with
  | ⟨0, _⟩ => show win2_3.index t 0 * 256 + 1 * (x 0).val = (k 0).val; rw [e0, hk0]; omega
  | ⟨1, _⟩ => show win2_3.index t 1 * 128 + 1 * (x 1).val = (k 1).val; rw [e1, hk1]; omega

/-- Window 4's block at point t is rows 256 t … of the array it stages. -/
theorem iblk_rows4 (c : Dev nD) (t : Fin cfg2.N) (x : S256x192.Idx) (k : S1024x192.Idx)
    (hk0 : (k 0).val = 256 * t.val + (x 0).val) (hk1 : (k 1).val = (x 1).val) :
    (iblk2 V c 4 t : Vec Ideal S256x192 .f32) x = (V c main_v44 : S1024x192.Idx → EReal) k := by
  obtain ⟨e0, e1⟩ := idx_w4 t
  unfold iblk2
  rw [View.read_apply]
  show V c main_v44 _ = V c main_v44 _
  congr 1
  funext a
  apply Fin.ext
  match a with
  | ⟨0, _⟩ => show win2_4.index t 0 * 256 + 1 * (x 0).val = (k 0).val; rw [e0, hk0]; omega
  | ⟨1, _⟩ => show win2_4.index t 1 * 192 + 1 * (x 1).val = (k 1).val; rw [e1, hk1]; omega

/-- The score window's block at every point is the whole score matrix. -/
theorem iblk_scores (c : Dev nD) (t : Fin cfg2.N) (x : S256x3.Idx) :
    (iblk2 V c 5 t : Vec Ideal S256x3 .f32) x = (V c main_arg3 : S256x3.Idx → EReal) x := by
  obtain ⟨e0, e1⟩ := idx_w5 t
  unfold iblk2
  rw [View.read_apply]
  show V c main_arg3 _ = V c main_arg3 _
  congr 1
  funext a
  apply Fin.ext
  match a with
  | ⟨0, _⟩ => show win2_5.index t 0 * 256 + 1 * (x 0).val = (x 0).val; rw [e0]; omega
  | ⟨1, _⟩ => show win2_5.index t 1 * 3 + 1 * (x 1).val = (x 1).val; rw [e1]; omega

/-- The weight window's block at every point is the whole weight matrix. -/
theorem iblk_weights (c : Dev nD) (t : Fin cfg2.N) (x : S448x2.Idx) :
    (iblk2 V c 6 t : Vec Ideal S448x2 .f32) x = (V c main_arg4 : S448x2.Idx → EReal) x := by
  obtain ⟨e0, e1⟩ := idx_w6 t
  unfold iblk2
  rw [View.read_apply]
  show V c main_arg4 _ = V c main_arg4 _
  congr 1
  funext a
  apply Fin.ext
  match a with
  | ⟨0, _⟩ => show win2_6.index t 0 * 448 + 1 * (x 0).val = (x 0).val; rw [e0]; omega
  | ⟨1, _⟩ => show win2_6.index t 1 * 2 + 1 * (x 1).val = (x 1).val; rw [e1]; omega

/-- The prior window's block at every point is the whole prior. -/
theorem iblk_prior (c : Dev nD) (t : Fin cfg2.N) (x : S2.Idx) :
    (iblk2 V c 7 t : Vec Ideal S2 .f32) x = (V c main_arg5 : S2.Idx → EReal) x := by
  have e0 := idx_w7 t
  unfold iblk2
  rw [View.read_apply]
  show V c main_arg5 _ = V c main_arg5 _
  congr 1
  funext a
  apply Fin.ext
  match a with
  | ⟨0, _⟩ => show win2_7.index t 0 * 2 + 1 * (x 0).val = (x 0).val; rw [e0]; omega

/-- Entry x of the block point t stores is entry i of the head function of the whole arrays, i being x moved down
    256 t rows. -/
theorem block_entry (c : Dev nD) (t : Fin cfg2.N) (x : S256x2.Idx) (i : S1024x2.Idx)
    (h0 : (i 0).val = 256 * t.val + (x 0).val) (h1 : (i 1).val = (x 1).val) :
    k2_pay1 (k2_pay4 (iblk2 V c 4 t)) (k2_pay5 (iblk2 V c 5 t) (iblk2 V c 3 t) (iblk2 V c 0 t) (iblk2 V c 1 t))
        (k2_pay6 (iblk2 V c 3 t) (iblk2 V c 2 t)) (k2_pay7 (iblk2 V c 5 t)) (iblk2 V c 6 t) (iblk2 V c 7 t) x
      = headArr (layerArr (rfl : 128 + 128 = 256) (rfl : 192 + 256 = 448) (V c main_v44) (V c main_v65) (V c main_v84) (V c main_v103)
          (V c main_v46) (k2_pay2 (V c main_arg3))) (V c main_arg4) (V c main_arg5) i := by
  obtain ⟨p, q, rfl⟩ : ∃ (p : Fin 256) (q : Fin 2), x = ix2 p q := ⟨x 0, x 1, eq_ix2 x⟩
  obtain ⟨n, q', rfl⟩ : ∃ (n : Fin 1024) (q' : Fin 2), i = ix2 n q' := ⟨i 0, i 1, eq_ix2 i⟩
  have hq : q' = q := Fin.ext h1
  subst hq
  refine (pay_apply (iblk2 V c 0 t) (iblk2 V c 1 t) (iblk2 V c 2 t) (iblk2 V c 3 t) (iblk2 V c 4 t) (iblk2 V c 5 t)
    (iblk2 V c 6 t) (iblk2 V c 7 t) p q').trans ?_
  rw [headArr_apply]
  have e0 : ∀ r : Fin 128, (iblk2 V c 0 t : Vec Ideal S256x128 .f32) (ix2 p r) = (V c main_v65 : S1024x128.Idx → EReal) (ix2 n r) :=
    fun r => iblk_rows0 V c t (ix2 p r) (ix2 n r) h0 rfl
  have e1 : ∀ r : Fin 128, (iblk2 V c 1 t : Vec Ideal S256x128 .f32) (ix2 p r) = (V c main_v84 : S1024x128.Idx → EReal) (ix2 n r) :=
    fun r => iblk_rows1 V c t (ix2 p r) (ix2 n r) h0 rfl
  have e2 : ∀ r : Fin 128, (iblk2 V c 2 t : Vec Ideal S256x128 .f32) (ix2 p r) = (V c main_v103 : S1024x128.Idx → EReal) (ix2 n r) :=
    fun r => iblk_rows2 V c t (ix2 p r) (ix2 n r) h0 rfl
  have e3 : ∀ r : Fin 128, (iblk2 V c 3 t : Vec Ideal S256x128 .f32) (ix2 p r) = (V c main_v46 : S1024x128.Idx → EReal) (ix2 n r) :=
    fun r => iblk_rows3 V c t (ix2 p r) (ix2 n r) h0 rfl
  have e4 : ∀ r : Fin 192, (iblk2 V c 4 t : Vec Ideal S256x192 .f32) (ix2 p r) = (V c main_v44 : S1024x192.Idx → EReal) (ix2 n r) :=
    fun r => iblk_rows4 V c t (ix2 p r) (ix2 n r) h0 rfl
  have e5 : (iblk2 V c 5 t : Vec Ideal S256x3 .f32) = (V c main_arg3 : S256x3.Idx → EReal) := funext fun y => iblk_scores V c t y
  have e6 : (iblk2 V c 6 t : Vec Ideal S448x2 .f32) = (V c main_arg4 : S448x2.Idx → EReal) := funext fun y => iblk_weights V c t y
  have e7 : (iblk2 V c 7 t : Vec Ideal S2 .f32) = (V c main_arg5 : S2.Idx → EReal) := funext fun y => iblk_prior V c t y
  rw [e5, e6, e7]
  refine congrArg₂ (· + ·) (Finset.sum_congr rfl fun k _ => ?_) rfl
  rw [layerArr_apply]
  unfold layerAt fusedAt pairAt
  simp only [e0, e1, e2, e3, e4]

/-- What point t writes back is block t of the head function of the arrays the launch was entered with. -/
theorem flushed_eq (c : Dev nD) (t : Fin cfg2.N) :
    (dat2 V c).flushed 8 t = ((cfg2.win 8).blk t).view.read (Elt Ideal)
      (headArr (layerArr (rfl : 128 + 128 = 256) (rfl : 192 + 256 = 448) (V c main_v44) (V c main_v65) (V c main_v84) (V c main_v103)
          (V c main_v46) (k2_pay2 (V c main_arg3))) (V c main_arg4) (V c main_arg5)) := by
  show (cfg2.win 8).cut (grid2.coords t) ((dat2 V c).after 8 t) = _
  rw [after2_8]
  unfold out2_8
  rw [View.canon_unit_zero hz]
  simp only [View.ld_unit_zero (S := S256x128) hz, View.ld_unit_zero (S := S256x192) hz, View.ld_unit_zero (S := S256x3) hz,
    View.ld_unit_zero (S := S448x2) hz, View.ld_unit_zero (S := S2) hz1]
  obtain ⟨e0, e1⟩ := idx_w8 t
  funext j
  refine block_entry V c t j (((cfg2.win 8).blk t).view.emb j) ?_ ?_
  · show win2_8.index t 0 * 256 + 1 * (j 0).val = _; rw [e0]; omega
  · show win2_8.index t 1 * 2 + 1 * (j 1).val = _; rw [e1]; omega

/-- An index of the result array is in point t's block iff each coordinate is in the block's range on its axis. -/
theorem mem_blk (t : Fin cfg2.N) (i : S1024x2.Idx) :
    i ∈ ((cfg2.win 8).blk t).view.set ↔ ∀ a : Fin 2, win2_8.index t a * S256x2.size a ≤ (i a).val ∧ (i a).val < win2_8.index t a * S256x2.size a + S256x2.size a := by
  show i ∈ ((View.whole main_v104).slice (win2_8.rect t)).set ↔ _
  rw [View.set_slice_whole, Rect.mem_set_unit]
  exact Iff.rfl

/-- The four row blocks tile the result: row r is in the block of point r / 256. -/
theorem cover (i : S1024x2.Idx) : ∃ t : Fin cfg2.N, (cfg2.win 8).flush t = true ∧ i ∈ ((cfg2.win 8).blk t).view.set := by
  have hN : cfg2.N = 4 := N_2
  have hi0 : (i 0).val < 1024 := (i 0).isLt
  have hi1 : (i 1).val < 2 := (i 1).isLt
  refine ⟨⟨(i 0).val / 256, by rw [hN]; omega⟩, flush2_8 _, ?_⟩
  rw [mem_blk]
  obtain ⟨e0, e1⟩ := idx_w8 ⟨(i 0).val / 256, by rw [hN]; omega⟩
  intro a
  match a with
  | ⟨0, _⟩ => show win2_8.index _ (0 : Fin 2) * 256 ≤ (i 0).val ∧ (i 0).val < win2_8.index _ (0 : Fin 2) * 256 + 256; rw [e0]; dsimp only; omega
  | ⟨1, _⟩ => show win2_8.index _ (1 : Fin 2) * 2 ≤ (i 1).val ∧ (i 1).val < win2_8.index _ (1 : Fin 2) * 2 + 2; rw [e1]; omega

/-- THE ARRAY the third launch leaves: the head function of the arrays it was entered with. -/
theorem array (c : Dev nD) : (dat2 V c).arrAt 8 cfg2.N
    = headArr (layerArr (rfl : 128 + 128 = 256) (rfl : 192 + 256 = 448) (V c main_v44) (V c main_v65) (V c main_v84) (V c main_v103)
          (V c main_v46) (k2_pay2 (V c main_arg3))) (V c main_arg4) (V c main_arg5) :=
  (dat2 V c).arrAt_eq_of_cover 8 _ (fun t _ => flushed_eq V c t) cover

end Cert.KernelIdeal.Region2

end
-- ==== Proof.Chains.lean ====
/-
  The host operations between the launches, as functions of arrays.

  Between the first and second launch the program forms, for each of the three relations, the mean over a node's 32
  neighbours of the neighbours' 64 features: the relation's table of neighbour ids (a slice of the adjacency array),
  ids below zero wrapped once by 50000, the rows gathered, summed along the neighbour axis from zero and divided by 32.
  Between the second and third launch it gathers the 1024 batch nodes' rows of the layer-1 features, cuts the last
  128 columns of those rows and of the whole layer-1 array, looks up the batch nodes' neighbour ids, and forms the
  same means over the 128-column tail. Each is named here once, and each buffer a launch reads is shown to hold that
  function of what the stretch was entered with.
-/
import proofs.«177839_j28630251995136_1_alg».proof.Proof.Gen.KernelIdeal.Launch
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.Chains

open Cert.KernelIdeal Cert.KernelIdeal.Gen

abbrev CI (s : Shape) := IVec s 32
abbrev CF (s : Shape) := FVec Ideal s .f32

/-- Relation 0's table of neighbour ids. -/
def adj0 (a : CI S3x50000x32) : CI S50000x32 :=
  shapeCast _ (extractStridedSlice S1x50000x32 ![0, 0, 0] a slices_S3x50000x32_S1x50000x32_0_0_0) shapeCasts_S1x50000x32_S50000x32
/-- Relation 1's table of neighbour ids. -/
def adj1 (a : CI S3x50000x32) : CI S50000x32 :=
  shapeCast _ (extractStridedSlice S1x50000x32 ![1, 0, 0] a slices_S3x50000x32_S1x50000x32_1_0_0) shapeCasts_S1x50000x32_S50000x32
/-- Relation 2's table of neighbour ids. -/
def adj2 (a : CI S3x50000x32) : CI S50000x32 :=
  shapeCast _ (extractStridedSlice S1x50000x32 ![2, 0, 0] a slices_S3x50000x32_S1x50000x32_2_0_0) shapeCasts_S1x50000x32_S50000x32

/-- Layer 1: the mean over each node's 32 neighbours of the neighbours' rows of `h`. -/
def meanNb1 (h : CF S50000x64) (nb : CI S50000x32) : CF S50000x64 :=
  Host.divf (Host.reduceAdd (Host.gather gather_S50000x64_S50000x32x1_S50000x32x64_2_0_n_n_0_2_164 h
      (broadcastInDim S50000x32x1 ![0, 1] bcast_S50000x32_S50000x32x1_0_1
        (select (cmpi .slt nb (broadcastInDim S50000x32 ![] bcast_S_S50000x32 (constantI S_ 32 0#32)))
          (addi nb (broadcastInDim S50000x32 ![] bcast_S_S50000x32 (constantI S_ 32 50000#32))) nb)))
      (constant S_ .f32 0x00000000#32) reducesTo_S50000x32x64_S50000x64_d1 h_S_)
    (broadcastInDim S50000x64 ![] bcast_S_S50000x64 (constant S_ .f32 0x42000000#32))

/-- The batch nodes' ids, ids below zero wrapped once, laid out as a column. -/
def nodeCol (n : CI S1024) : CI S1024x1 :=
  broadcastInDim S1024x1 ![0] bcast_S1024_S1024x1_0
    (select (cmpi .slt n (broadcastInDim S1024 ![] bcast_S_S1024 (constantI S_ 32 0#32)))
      (addi n (broadcastInDim S1024 ![] bcast_S_S1024 (constantI S_ 32 50000#32))) n)

/-- The batch nodes' rows of the layer-1 features. -/
def selfFull (h1 : CF S50000x192) (n : CI S1024) : CF S1024x192 :=
  Host.gather gather_S50000x192_S1024x1_S1024x192_1_0_n_n_0_1_1192 h1 (nodeCol n)
/-- The last 128 columns of the layer-1 features. -/
def tailAll (h1 : CF S50000x192) : CF S50000x128 := extractStridedSlice S50000x128 ![0, 64] h1 slices_S50000x192_S50000x128_0_64
/-- The last 128 columns of the batch nodes' rows. -/
def selfTail (sf : CF S1024x192) : CF S1024x128 := extractStridedSlice S1024x128 ![0, 64] sf slices_S1024x192_S1024x128_0_64
/-- The batch nodes' rows of a relation's table of neighbour ids. -/
def nbOfNodes (a : CI S50000x32) (n : CI S1024) : CI S1024x32 :=
  Host.gather gather_S50000x32_S1024x1_S1024x32_1_0_n_n_0_1_132 a (nodeCol n)

/-- Layer 2: the mean over each batch node's 32 neighbours of the neighbours' rows of `ht`. -/
def meanNb2 (ht : CF S50000x128) (nb : CI S1024x32) : CF S1024x128 :=
  Host.divf (Host.reduceAdd (Host.gather gather_S50000x128_S1024x32x1_S1024x32x128_2_0_n_n_0_2_1128 ht
      (broadcastInDim S1024x32x1 ![0, 1] bcast_S1024x32_S1024x32x1_0_1
        (select (cmpi .slt nb (broadcastInDim S1024x32 ![] bcast_S_S1024x32 (constantI S_ 32 0#32)))
          (addi nb (broadcastInDim S1024x32 ![] bcast_S_S1024x32 (constantI S_ 32 50000#32))) nb)))
      (constant S_ .f32 0x00000000#32) reducesTo_S1024x32x128_S1024x128_d1 h_S_)
    (broadcastInDim S1024x128 ![] bcast_S_S1024x128 (constant S_ .f32 0x42000000#32))

variable (W : Valuation τ sig (Elt Ideal))

/-! ## After the first stretch -/

set_option maxRecDepth 8192 in
set_option maxHeartbeats 2000000 in
theorem s1_v12 : after hostOps1 W (Proc.devRef .tc main_v12) = meanNb1 (W (Proc.devRef .tc main_v0)) (adj0 (W (Proc.devRef .tc main_arg6))) := by
  simp only [hostOps1]
  after_results_simp
  all_goals rfl

set_option maxRecDepth 8192 in
set_option maxHeartbeats 2000000 in
theorem s1_v24 : after hostOps1 W (Proc.devRef .tc main_v24) = meanNb1 (W (Proc.devRef .tc main_v0)) (adj1 (W (Proc.devRef .tc main_arg6))) := by
  simp only [hostOps1]
  after_results_simp
  all_goals rfl

set_option maxRecDepth 8192 in
set_option maxHeartbeats 2000000 in
theorem s1_v36 : after hostOps1 W (Proc.devRef .tc main_v36) = meanNb1 (W (Proc.devRef .tc main_v0)) (adj2 (W (Proc.devRef .tc main_arg6))) := by
  simp only [hostOps1]
  after_results_simp
  all_goals rfl

set_option maxRecDepth 8192 in
set_option maxHeartbeats 2000000 in
/-- The first stretch writes neither the first launch's result nor an argument. -/
theorem s1_v0 : after hostOps1 W (Proc.devRef .tc main_v0) = W (Proc.devRef .tc main_v0) := by
  simp only [hostOps1]
  after_results_simp
  all_goals rfl

set_option maxRecDepth 8192 in
set_option maxHeartbeats 2000000 in
theorem s1_arg2 : after hostOps1 W (Proc.devRef .tc main_arg2) = W (Proc.devRef .tc main_arg2) := by
  simp only [hostOps1]
  after_results_simp
  all_goals rfl

set_option maxRecDepth 8192 in
set_option maxHeartbeats 2000000 in
theorem s1_arg3 : after hostOps1 W (Proc.devRef .tc main_arg3) = W (Proc.devRef .tc main_arg3) := by
  simp only [hostOps1]
  after_results_simp
  all_goals rfl

set_option maxRecDepth 8192 in
set_option maxHeartbeats 2000000 in
theorem s1_arg4 : after hostOps1 W (Proc.devRef .tc main_arg4) = W (Proc.devRef .tc main_arg4) := by
  simp only [hostOps1]
  after_results_simp
  all_goals rfl

set_option maxRecDepth 8192 in
set_option maxHeartbeats 2000000 in
theorem s1_arg5 : after hostOps1 W (Proc.devRef .tc main_arg5) = W (Proc.devRef .tc main_arg5) := by
  simp only [hostOps1]
  after_results_simp
  all_goals rfl

set_option maxRecDepth 8192 in
set_option maxHeartbeats 2000000 in
theorem s1_arg6 : after hostOps1 W (Proc.devRef .tc main_arg6) = W (Proc.devRef .tc main_arg6) := by
  simp only [hostOps1]
  after_results_simp
  all_goals rfl

set_option maxRecDepth 8192 in
set_option maxHeartbeats 2000000 in
theorem s1_arg7 : after hostOps1 W (Proc.devRef .tc main_arg7) = W (Proc.devRef .tc main_arg7) := by
  simp only [hostOps1]
  after_results_simp
  all_goals rfl

/-! ## After the second stretch -/

set_option maxRecDepth 8192 in
set_option maxHeartbeats 2000000 in
theorem s2_v44 : after hostOps2 W (Proc.devRef .tc main_v44) = selfFull (W (Proc.devRef .tc main_v37)) (W (Proc.devRef .tc main_arg7)) := by
  simp only [hostOps2]
  after_results_simp
  all_goals rfl

set_option maxRecDepth 8192 in
set_option maxHeartbeats 2000000 in
theorem s2_v46 : after hostOps2 W (Proc.devRef .tc main_v46) = selfTail (selfFull (W (Proc.devRef .tc main_v37)) (W (Proc.devRef .tc main_arg7))) := by
  simp only [hostOps2]
  after_results_simp
  all_goals rfl

set_option maxRecDepth 8192 in
set_option maxHeartbeats 2000000 in
theorem s2_v65 : after hostOps2 W (Proc.devRef .tc main_v65)
    = meanNb2 (tailAll (W (Proc.devRef .tc main_v37))) (nbOfNodes (adj0 (W (Proc.devRef .tc main_arg6))) (W (Proc.devRef .tc main_arg7))) := by
  simp only [hostOps2]
  after_results_simp
  all_goals rfl

set_option maxRecDepth 8192 in
set_option maxHeartbeats 2000000 in
theorem s2_v84 : after hostOps2 W (Proc.devRef .tc main_v84)
    = meanNb2 (tailAll (W (Proc.devRef .tc main_v37))) (nbOfNodes (adj1 (W (Proc.devRef .tc main_arg6))) (W (Proc.devRef .tc main_arg7))) := by
  simp only [hostOps2]
  after_results_simp
  all_goals rfl

set_option maxRecDepth 8192 in
set_option maxHeartbeats 2000000 in
theorem s2_v103 : after hostOps2 W (Proc.devRef .tc main_v103)
    = meanNb2 (tailAll (W (Proc.devRef .tc main_v37))) (nbOfNodes (adj2 (W (Proc.devRef .tc main_arg6))) (W (Proc.devRef .tc main_arg7))) := by
  simp only [hostOps2]
  after_results_simp
  all_goals rfl

set_option maxRecDepth 8192 in
set_option maxHeartbeats 2000000 in
theorem s2_arg3 : after hostOps2 W (Proc.devRef .tc main_arg3) = W (Proc.devRef .tc main_arg3) := by
  simp only [hostOps2]
  after_results_simp
  all_goals rfl

set_option maxRecDepth 8192 in
set_option maxHeartbeats 2000000 in
theorem s2_arg4 : after hostOps2 W (Proc.devRef .tc main_arg4) = W (Proc.devRef .tc main_arg4) := by
  simp only [hostOps2]
  after_results_simp
  all_goals rfl

set_option maxRecDepth 8192 in
set_option maxHeartbeats 2000000 in
theorem s2_arg5 : after hostOps2 W (Proc.devRef .tc main_arg5) = W (Proc.devRef .tc main_arg5) := by
  simp only [hostOps2]
  after_results_simp
  all_goals rfl

end Cert.KernelIdeal.Chains

end
-- ==== Proof.Out.lean ====
/-
  The whole computation as one function of the eight argument arrays.

  Layer 0 is the plain product of the features and the first weight matrix. Layer 1 puts, for every node, its layer-0
  row in front of the fusion of the three relations' neighbour means of layer 0, weighted by the softmax of the first
  score matrix. Layer 2 does the same for the 1024 batch nodes over the 128-column tail of layer 1, weighted by the
  softmax of the second score matrix, with the batch nodes' layer-1 rows in front. The head multiplies by the last
  weight matrix and adds the logarithm of the prior.
-/
import proofs.«177839_j28630251995136_1_alg».proof.Proof.Chains
import proofs.«177839_j28630251995136_1_alg».proof.Proof.Spec
import proofs.«177839_j28630251995136_1_alg».proof.Proof.Region1

noncomputable section

open Idealize.ShloMosaic Idealize.ShloMosaic.ValueIdx

namespace Cert.KernelIdeal.Out

open Cert.KernelIdeal Cert.KernelIdeal.Gen Cert.KernelIdeal.Chains Cert.Spec

/-- Layer 0. -/
def h0Of (a0 : CF S50000x25) (a1 : CF S25x64) : CF S50000x64 := rowsDot a0 a1

/-- Layer 1. -/
def h1Of (a0 : CF S50000x25) (a1 : CF S25x64) (a2 : CF S128x3) (a6 : CI S3x50000x32) : CF S50000x192 :=
  layerArr (rfl : 64 + 64 = 128) (rfl : 64 + 128 = 192) (h0Of a0 a1) (meanNb1 (h0Of a0 a1) (adj0 a6)) (meanNb1 (h0Of a0 a1) (adj1 a6))
    (meanNb1 (h0Of a0 a1) (adj2 a6)) (h0Of a0 a1) (Cert.KernelIdeal.Region1.smK a2)

/-- Layer 2 and the head, from the layer-1 array. -/
def headOf (h1 : CF S50000x192) (a3 : CF S256x3) (a4 : CF S448x2) (a5 : CF S2) (a6 : CI S3x50000x32) (a7 : CI S1024) : CF S1024x2 :=
  headArr (layerArr (rfl : 128 + 128 = 256) (rfl : 192 + 256 = 448) (selfFull h1 a7)
      (meanNb2 (tailAll h1) (nbOfNodes (adj0 a6) a7)) (meanNb2 (tailAll h1) (nbOfNodes (adj1 a6) a7))
      (meanNb2 (tailAll h1) (nbOfNodes (adj2 a6) a7)) (selfTail (selfFull h1 a7)) (k2_pay2 (F := Ideal) a3)) a4 a5

/-- The result. -/
def outOf (a0 : CF S50000x25) (a1 : CF S25x64) (a2 : CF S128x3) (a3 : CF S256x3) (a4 : CF S448x2) (a5 : CF S2)
    (a6 : CI S3x50000x32) (a7 : CI S1024) : CF S1024x2 :=
  headOf (h1Of a0 a1 a2 a6) a3 a4 a5 a6 a7

end Cert.KernelIdeal.Out

end
-- ==== Proof.KValue.lean ====
/-
  What the idealized kernel's result buffer holds after the run, as the function of the argument arrays.

  The buffer contents are folded through the five segments: the first launch leaves the plain product; the first host
  stretch forms the three neighbour means from it; the second launch leaves the layer-1 array; the second host stretch
  gathers the batch nodes' rows, cuts the tails and forms the layer-2 means; the third launch leaves the head's output.
  No segment writes an argument, so every read of an argument along the way is the launch memory.
-/
import proofs.«177839_j28630251995136_1_alg».proof.Proof.KRun
import proofs.«177839_j28630251995136_1_alg».proof.Proof.Region0
import proofs.«177839_j28630251995136_1_alg».proof.Proof.Region1
import proofs.«177839_j28630251995136_1_alg».proof.Proof.Region2
import proofs.«177839_j28630251995136_1_alg».proof.Proof.Chains
import proofs.«177839_j28630251995136_1_alg».proof.Proof.Out

set_option maxRecDepth 16384

noncomputable section

open Idealize.ShloMosaic Idealize.ShloMosaic.TcCoe Idealize.SL.Sem Idealize.ShloMosaic.StableHlo Idealize.ShloMosaic.ValueIdx

namespace Cert.KernelIdeal.KValue

open Cert.KernelIdeal Cert.KernelIdeal.Gen Cert.KernelIdeal.Chains Cert.KernelIdeal.Out Cert.Spec

variable (m : (ℓ : Loc nD τ sig) → Buf (Elt Ideal) ℓ) (ρ : Dev nD → PrngReg) (c : Dev nD)

/-! ## After the first launch -/

theorem W1_v0 : W1 m ρ c (Proc.devRef .tc main_v0)
    = h0Of (m ((c : Thread nD τ).loc main_arg0)) (m ((c : Thread nD τ).loc main_arg1)) :=
  (W1_arr m ρ c 2).trans (Cert.KernelIdeal.Region0.array (V0 m ρ) c)

theorem W1_arg2 : W1 m ρ c (Proc.devRef .tc main_arg2) = m ((c : Thread nD τ).loc main_arg2) := W1_of_ne m ρ c main_arg2 (by decide)
theorem W1_arg3 : W1 m ρ c (Proc.devRef .tc main_arg3) = m ((c : Thread nD τ).loc main_arg3) := W1_of_ne m ρ c main_arg3 (by decide)
theorem W1_arg4 : W1 m ρ c (Proc.devRef .tc main_arg4) = m ((c : Thread nD τ).loc main_arg4) := W1_of_ne m ρ c main_arg4 (by decide)
theorem W1_arg5 : W1 m ρ c (Proc.devRef .tc main_arg5) = m ((c : Thread nD τ).loc main_arg5) := W1_of_ne m ρ c main_arg5 (by decide)
theorem W1_arg6 : W1 m ρ c (Proc.devRef .tc main_arg6) = m ((c : Thread nD τ).loc main_arg6) := W1_of_ne m ρ c main_arg6 (by decide)
theorem W1_arg7 : W1 m ρ c (Proc.devRef .tc main_arg7) = m ((c : Thread nD τ).loc main_arg7) := W1_of_ne m ρ c main_arg7 (by decide)

/-! ## What the second launch is entered with -/

theorem V2_v0 : V2 m ρ c main_v0 = h0Of (m ((c : Thread nD τ).loc main_arg0)) (m ((c : Thread nD τ).loc main_arg1)) :=
  (s1_v0 (W1 m ρ c)).trans (W1_v0 m ρ c)
theorem V2_arg2 : V2 m ρ c main_arg2 = m ((c : Thread nD τ).loc main_arg2) := (s1_arg2 (W1 m ρ c)).trans (W1_arg2 m ρ c)
theorem V2_v12 : V2 m ρ c main_v12
    = meanNb1 (h0Of (m ((c : Thread nD τ).loc main_arg0)) (m ((c : Thread nD τ).loc main_arg1))) (adj0 (m ((c : Thread nD τ).loc main_arg6))) :=
  (s1_v12 (W1 m ρ c)).trans (by rw [W1_v0, W1_arg6])
theorem V2_v24 : V2 m ρ c main_v24
    = meanNb1 (h0Of (m ((c : Thread nD τ).loc main_arg0)) (m ((c : Thread nD τ).loc main_arg1))) (adj1 (m ((c : Thread nD τ).loc main_arg6))) :=
  (s1_v24 (W1 m ρ c)).trans (by rw [W1_v0, W1_arg6])
theorem V2_v36 : V2 m ρ c main_v36
    = meanNb1 (h0Of (m ((c : Thread nD τ).loc main_arg0)) (m ((c : Thread nD τ).loc main_arg1))) (adj2 (m ((c : Thread nD τ).loc main_arg6))) :=
  (s1_v36 (W1 m ρ c)).trans (by rw [W1_v0, W1_arg6])

/-! ## After the second launch -/

theorem W3_v37 : W3 m ρ c (Proc.devRef .tc main_v37)
    = h1Of (m ((c : Thread nD τ).loc main_arg0)) (m ((c : Thread nD τ).loc main_arg1)) (m ((c : Thread nD τ).loc main_arg2))
        (m ((c : Thread nD τ).loc main_arg6)) :=
  (W3_arr m ρ c 5).trans ((Cert.KernelIdeal.Region1.array (V2 m ρ) c).trans (by
    rw [V2_v0, V2_v12, V2_v24, V2_v36, V2_arg2]; rfl))

theorem W3_arg3 : W3 m ρ c (Proc.devRef .tc main_arg3) = m ((c : Thread nD τ).loc main_arg3) :=
  (W3_of_ne m ρ c main_arg3 (by decide)).trans ((s1_arg3 (W1 m ρ c)).trans (W1_arg3 m ρ c))
theorem W3_arg4 : W3 m ρ c (Proc.devRef .tc main_arg4) = m ((c : Thread nD τ).loc main_arg4) :=
  (W3_of_ne m ρ c main_arg4 (by decide)).trans ((s1_arg4 (W1 m ρ c)).trans (W1_arg4 m ρ c))
theorem W3_arg5 : W3 m ρ c (Proc.devRef .tc main_arg5) = m ((c : Thread nD τ).loc main_arg5) :=
  (W3_of_ne m ρ c main_arg5 (by decide)).trans ((s1_arg5 (W1 m ρ c)).trans (W1_arg5 m ρ c))
theorem W3_arg6 : W3 m ρ c (Proc.devRef .tc main_arg6) = m ((c : Thread nD τ).loc main_arg6) :=
  (W3_of_ne m ρ c main_arg6 (by decide)).trans ((s1_arg6 (W1 m ρ c)).trans (W1_arg6 m ρ c))
theorem W3_arg7 : W3 m ρ c (Proc.devRef .tc main_arg7) = m ((c : Thread nD τ).loc main_arg7) :=
  (W3_of_ne m ρ c main_arg7 (by decide)).trans ((s1_arg7 (W1 m ρ c)).trans (W1_arg7 m ρ c))

/-! ## After the third launch -/

/-- The result buffer holds the output function of the launch memory's argument arrays. -/
theorem W5_v104 : W5 m ρ c (Proc.devRef .tc main_v104)
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W5_arr m ρ c 8).trans ((Cert.KernelIdeal.Region2.array (V4 m ρ) c).trans ?_)
  have e44 : V4 m ρ c main_v44 = _ := s2_v44 (W3 m ρ c)
  have e46 : V4 m ρ c main_v46 = _ := s2_v46 (W3 m ρ c)
  have e65 : V4 m ρ c main_v65 = _ := s2_v65 (W3 m ρ c)
  have e84 : V4 m ρ c main_v84 = _ := s2_v84 (W3 m ρ c)
  have e103 : V4 m ρ c main_v103 = _ := s2_v103 (W3 m ρ c)
  have e3 : V4 m ρ c main_arg3 = _ := (s2_arg3 (W3 m ρ c)).trans (W3_arg3 m ρ c)
  have e4 : V4 m ρ c main_arg4 = _ := (s2_arg4 (W3 m ρ c)).trans (W3_arg4 m ρ c)
  have e5 : V4 m ρ c main_arg5 = _ := (s2_arg5 (W3 m ρ c)).trans (W3_arg5 m ρ c)
  rw [e44, e46, e65, e84, e103, e3, e4, e5, W3_v37, W3_arg6, W3_arg7]
  rfl

/-- The run: the result at the output function of the arguments, the arguments unchanged. -/
theorem run : θ_run defs (onTc (τ := τ) (main (F := Ideal))) ⟨m, fun _ => 0, ρ⟩ (fun r => ∀ c : Dev nD,
      r.2.mem ((c.tc : Thread nD τ).loc main_v104)
        = outOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (W5_v104 m ρ c), (h c).2⟩) (Cert.KernelIdeal.KRun.run_out m ρ)

end Cert.KernelIdeal.KValue

end
-- ==== Proof.GatherIota.lean ====
/-
  The reference program reads `adj[r]` at `arange(50000)`: an iota, the negative-index normalization
  `select (i < 0) (i + 50000) i`, the index vector broadcast to a column `[50000, 1]`, and a gather of whole rows of
  the `[50000, 32]` operand. This file shows that gather returns its operand: every index is its own row number, none
  is negative as a signed 32-bit word, and none exceeds the last row, so neither the normalization nor the gather's
  clamping changes it.
-/
import proofs.«177839_j28630251995136_1_alg».proof.ReferenceIdeal
import Idealize.ShloMosaic.Lib.ValueIdx
import Idealize.ShloMosaic.Lib.IdealHost
import Idealize.ShloMosaic.Lib.Pipeline.Value

noncomputable section

namespace Cert.ReferenceIdeal.RefValue

open Cert.ReferenceIdeal Idealize.ShloMosaic Idealize.ShloMosaic.ValueIdx

variable [Facts₀]
open Facts₀

/-- A row number below 50000, as a 32-bit word read signed, is itself. -/
theorem toInt_ofNat_row (p : Fin 50000) : (BitVec.ofNat 32 p.val).toInt.toNat = p.val := by
  have hp := p.isLt
  rw [BitVec.toInt_eq_toNat_cond, BitVec.toNat_ofNat]
  have h1 : p.val % 2 ^ 32 = p.val := Nat.mod_eq_of_lt (by omega)
  rw [h1]
  split <;> omega

/-- A row number below 50000 is not negative as a signed 32-bit word. -/
theorem not_slt_zero_row (p : Fin 50000) : (BitVec.ofNat 32 p.val).slt 0#32 = false := by
  have hp := p.isLt
  have h1 : p.val % 2 ^ 32 = p.val := Nat.mod_eq_of_lt (by omega)
  rw [BitVec.slt, BitVec.toInt_eq_toNat_cond, BitVec.toNat_ofNat, h1]
  simp only [BitVec.toInt_zero, decide_eq_false_iff_not, not_lt]
  split <;> omega

/-- The normalized index vector of the identity gather. -/
abbrev normIota : IVec S50000 32 :=
  select (cmpi .slt (iotaInDim S50000 32 0) (broadcastInDim S50000 ![] bcast_S_S50000 (constantI S_ 32 0#32)))
    (addi (iotaInDim S50000 32 0) (broadcastInDim S50000 ![] bcast_S_S50000 (constantI S_ 32 50000#32)))
    (iotaInDim S50000 32 0)

/-- Entry `p` of the normalized index vector is the word of `p`: the comparison with zero fails, so the selection keeps the iota. -/
theorem normIota_apply (p : Fin 50000) : normIota (ix1 p) = BitVec.ofNat 32 p.val := by
  show Scalar.select (IntOp.cmpi .slt (BitVec.ofNat 32 p.val) (broadcastInDim S50000 ![] bcast_S_S50000 (constantI S_ 32 0#32) (ix1 p))) _ (BitVec.ofNat 32 p.val) = _
  rw [broadcastInDim_scalar_apply]
  show Scalar.select (BitVec.ofBool ((BitVec.ofNat 32 p.val).slt 0#32)) _ _ = _
  rw [not_slt_zero_row]
  exact select_zero _ _

/-- The index array `[50000, 1]` of the identity gather reads, at `(p, 0)`, the word of `p`. -/
theorem idxCol_apply (j : S50000x1.Idx) :
    broadcastInDim S50000x1 ![0] bcast_S50000_S50000x1_0 normIota j = BitVec.ofNat 32 (j 0).val := by
  have hp : (j 0).val < 50000 := (j 0).isLt
  rw [broadcastInDim_apply ![0] bcast_S50000_S50000x1_0 normIota j (ix1 (⟨(j 0).val, hp⟩ : Fin 50000)) ?_, normIota_apply]
  intro a
  obtain rfl : a = 0 := Subsingleton.elim _ _
  rw [if_neg (by decide)]
  rfl

/-- A GATHER OF WHOLE ROWS BY THE IDENTITY INDEX IS THE IDENTITY. Result element `(p, q)` of the gather reads the
    operand at row `min (start p) 49999` (the start index read signed, clamped so that the one-row slice fits) and
    column `q` (the offset coordinate). The start index of row `p` is entry `(p, 0)` of the index column, which is
    the word of `p`; read signed it is `p` itself, and `p ≤ 49999`, so the clamp does nothing and the element read
    is `A (p, q)`. -/
theorem gather_iota_rows (A : IVec S50000x32 32) :
    Host.gather gather_S50000x32_S50000x1_S50000x32_1_0_n_n_0_1_132 A
      (broadcastInDim S50000x1 ![0] bcast_S50000_S50000x1_0
        (select (cmpi .slt (iotaInDim S50000 32 0) (broadcastInDim S50000 ![] bcast_S_S50000 (constantI S_ 32 0#32)))
                (addi (iotaInDim S50000 32 0) (broadcastInDim S50000 ![] bcast_S_S50000 (constantI S_ 32 50000#32)))
                (iotaInDim S50000 32 0))) = A := by
  funext j
  unfold Host.gather
  refine congrArg A (funext fun a => Fin.ext ?_)
  show gather_S50000x32_S50000x1_S50000x32_1_0_n_n_0_1_132.start j _ a
      + gather_S50000x32_S50000x1_S50000x32_1_0_n_n_0_1_132.batchCoord j a
      + gather_S50000x32_S50000x1_S50000x32_1_0_n_n_0_1_132.offCoord j a = (j a).val
  rw [GatherDims.batchCoord_eq_zero _ _ _ List.not_mem_nil, Nat.add_zero]
  have ha : a = (0 : Fin 2) ∨ a = (1 : Fin 2) := by
    rcases a with ⟨v, hv⟩
    have hv2 : v < 2 := hv
    rcases (by omega : v = 0 ∨ v = 1) with rfl | rfl
    · left; rfl
    · right; rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S50000x32_S50000x1_S50000x32_1_0_n_n_0_1_132.startIndexMap from List.mem_singleton.mpr rfl)]
    rw [idxCol_apply]
    have hp : (j 0).val < 50000 := (j 0).isLt
    show min (BitVec.ofNat 32 (j 0).val).toInt.toNat (50000 - 1) = (j 0).val
    rw [toInt_ofNat_row ⟨(j 0).val, hp⟩]
    exact Nat.min_eq_left (by omega)
  · unfold GatherDims.start
    have h1 : (1 : Fin 2) ∉ gather_S50000x32_S50000x1_S50000x32_1_0_n_n_0_1_132.startIndexMap :=
      fun h => absurd (List.mem_singleton.mp h) (by decide)
    rw [dif_neg h1, Nat.zero_add]
    unfold GatherDims.offCoord
    have h2 : (1 : Fin 2) ∈ gather_S50000x32_S50000x1_S50000x32_1_0_n_n_0_1_132.sKept :=
      (GatherDims.mem_sKept _ _).mpr ⟨fun h => absurd (List.mem_singleton.mp h) (by decide), List.not_mem_nil⟩
    rw [dif_pos h2]
    rfl

end Cert.ReferenceIdeal.RefValue

end
-- ==== Proof.RefChains.lean ====
/-
  The reference's intermediate arrays as the same functions of arrays that the kernel program's host stretches compute.

  The reference spells the layer-1 neighbour lookup with one more step: it indexes each relation's table of neighbour
  ids by the identity vector 0, 1, …, 49999. That gather returns the table itself, so its neighbour means are the
  same function of the features and the table. Every other host step between the layers — the batch nodes' rows,
  the 128-column tails, the batch nodes' neighbour ids and their means — is spelt exactly as in the kernel program.
-/
import proofs.«177839_j28630251995136_1_alg».proof.Proof.Gen.ReferenceIdeal.Run
import proofs.«177839_j28630251995136_1_alg».proof.Proof.Chains
import proofs.«177839_j28630251995136_1_alg».proof.Proof.GatherIota
import proofs.«177839_j28630251995136_1_alg».proof.Proof.LibPlainDot
import proofs.«177839_j28630251995136_1_alg».proof.Proof.Spec

noncomputable section

open Idealize.ShloMosaic Idealize.ShloMosaic.TcCoe Idealize.SL.Sem Idealize.ShloMosaic.StableHlo Idealize.ShloMosaic.ValueIdx

namespace Cert.ReferenceIdeal.RefValue

open Cert.ReferenceIdeal Cert.ReferenceIdeal.Gen Cert.ReferenceIdeal.Value
open Cert.KernelIdeal.Chains (adj0 adj1 adj2 meanNb1 nodeCol selfFull tailAll selfTail nbOfNodes meanNb2)
open Cert.Spec

variable (V0 : Valuation τ sig (Elt Ideal))

/-- The layer-0 features: the plain product of the feature array and the weight array. -/
theorem r_v0 : res_main_v0 V0 = rowsDot (V0 (Proc.devRef .tc main_arg0)) (V0 (Proc.devRef .tc main_arg1)) := by
  funext i
  obtain ⟨p, q, rfl⟩ : ∃ (p : Fin 50000) (q : Fin 64), i = ix2 p q := ⟨i 0, i 1, eq_ix2 i⟩
  unfold res_main_v0
  exact Cert.PlainDot.dotGeneral_apply dot_S50000x25_S25x64_S50000x64_1_0_0_1_n_n rfl rfl (fun _ _ => rfl) (fun _ _ => rfl)
    (fun _ _ => rfl) (fun _ _ => rfl) none _ _ _ p q

/-- Indexing a relation's table by the identity vector returns the table. -/
theorem r_v22 : res_main_v22 V0 = adj0 (V0 (Proc.devRef .tc main_arg6)) := by
  unfold res_main_v22 res_main_v1
  rw [gather_iota_rows]
  rfl
theorem r_v49 : res_main_v49 V0 = adj1 (V0 (Proc.devRef .tc main_arg6)) := by
  unfold res_main_v49 res_main_v1
  rw [gather_iota_rows]
  rfl
theorem r_v76 : res_main_v76 V0 = adj2 (V0 (Proc.devRef .tc main_arg6)) := by
  unfold res_main_v76 res_main_v1
  rw [gather_iota_rows]
  rfl

/-- The layer-1 neighbour means. -/
theorem r_v32 : res_main_v32 V0 = meanNb1 (res_main_v0 V0) (res_main_v22 V0) := rfl
theorem r_v59 : res_main_v59 V0 = meanNb1 (res_main_v0 V0) (res_main_v49 V0) := rfl
theorem r_v86 : res_main_v86 V0 = meanNb1 (res_main_v0 V0) (res_main_v76 V0) := rfl

/-- Between the layers. -/
theorem r_v102 : res_main_v102 V0 = selfFull (res_main_v95 V0) (V0 (Proc.devRef .tc main_arg7)) := rfl
theorem r_v103 : res_main_v103 V0 = selfTail (res_main_v102 V0) := rfl
theorem r_v104 : res_main_v104 V0 = tailAll (res_main_v95 V0) := rfl
theorem r_v125 : res_main_v125 V0 = nbOfNodes (adj0 (V0 (Proc.devRef .tc main_arg6))) (V0 (Proc.devRef .tc main_arg7)) := rfl
theorem r_v152 : res_main_v152 V0 = nbOfNodes (adj1 (V0 (Proc.devRef .tc main_arg6))) (V0 (Proc.devRef .tc main_arg7)) := rfl
theorem r_v179 : res_main_v179 V0 = nbOfNodes (adj2 (V0 (Proc.devRef .tc main_arg6))) (V0 (Proc.devRef .tc main_arg7)) := rfl
theorem r_v135 : res_main_v135 V0 = meanNb2 (res_main_v104 V0) (res_main_v125 V0) := rfl
theorem r_v162 : res_main_v162 V0 = meanNb2 (res_main_v104 V0) (res_main_v152 V0) := rfl
theorem r_v189 : res_main_v189 V0 = meanNb2 (res_main_v104 V0) (res_main_v179 V0) := rfl

end Cert.ReferenceIdeal.RefValue

end
-- ==== Proof.RefLayers.lean ====
/-
  The reference's two fusion layers and its head, read at an entry.

  The reference computes each layer on whole arrays with host operations: the softmax weights' column r is sliced out,
  cast to a vector, laid along a row and spread over all rows; each relation's row (mean, own − mean) is a
  concatenation along the feature axis; the three weighted rows are added from a broadcast zero in the order 0, 1, 2;
  the previous layer's row is concatenated in front. Entry (n, j) of that array is the layer function of the same
  arrays. The head contracts the 448-entry rows with the weight matrix and adds the logarithm of the prior, spread
  over the rows.
-/
import proofs.«177839_j28630251995136_1_alg».proof.Proof.Gen.ReferenceIdeal.Run
import proofs.«177839_j28630251995136_1_alg».proof.Proof.Spec
import proofs.«177839_j28630251995136_1_alg».proof.Proof.LibRelFuse
import proofs.«177839_j28630251995136_1_alg».proof.Proof.LibColumnRead
import proofs.«177839_j28630251995136_1_alg».proof.Proof.LibPlainDot

set_option maxRecDepth 8192

noncomputable section

open scoped BigOperators
open Idealize.ShloMosaic Idealize.ShloMosaic.TcCoe Idealize.SL.Sem Idealize.ShloMosaic.StableHlo Idealize.ShloMosaic.ValueIdx

namespace Cert.ReferenceIdeal.RefValue

open Cert.ReferenceIdeal Cert.ReferenceIdeal.Gen Cert.ReferenceIdeal.Value
open Cert.Spec Cert.RelFuse Cert.ColumnRead

variable (V0 : Valuation τ sig (Elt Ideal))

/-- The layer-1 array is the layer function of the layer-0 features, the three neighbour means and the softmax weights. -/
theorem r_v95 : res_main_v95 V0
    = layerArr (rfl : 64 + 64 = 128) (rfl : 64 + 128 = 192) (res_main_v0 V0) (res_main_v32 V0) (res_main_v59 V0) (res_main_v86 V0)
        (res_main_v0 V0) (res_main_v12 V0) := by
  funext i
  obtain ⟨n, j, rfl⟩ : ∃ (n : Fin 50000) (j : Fin 192), i = ix2 n j := ⟨i 0, i 1, eq_ix2 i⟩
  unfold res_main_v95
  rw [concat_cols_apply (rfl : 64 + 128 = 192), layerArr_apply]
  unfold layerAt
  by_cases hj : j.val < 64
  · rw [dif_pos hj, dif_pos hj]
  · rw [dif_neg hj, dif_neg hj]
    rw [fused_host_apply (rfl : 64 + 64 = 128)]
    rw [weightCol_apply 0 (by decide) _ slices_S128x3_S128x1_0_0 shapeCasts_S128x1_S128,
      weightCol_apply 1 (by decide) _ slices_S128x3_S128x1_0_1 shapeCasts_S128x1_S128,
      weightCol_apply 2 (by decide) _ slices_S128x3_S128x1_0_2 shapeCasts_S128x1_S128]
    rfl

/-- The result is the head function of the layer-2 rows, the weight matrix and the prior. -/
theorem r_out : (addf (Host.dotGeneral (φ₂ := .f32) dot_S1024x448_S448x2_S1024x2_1_0_0_1_n_n none (concatenate S1024x448 1 [⟨S1024x192, (res_main_v102 V0)⟩, ⟨S1024x256, (addf (addf (addf (broadcastInDim S1024x256 ![] bcast_S_S1024x256 (constant S_ .f32 0x00000000#32)) (mulf (concatenate S1024x256 1 [⟨S1024x128, (res_main_v135 V0)⟩, ⟨S1024x128, (subf (res_main_v103 V0) (res_main_v135 V0))⟩] concatenates_S1024x128_S1024x128_S1024x256_d1) (broadcastInDim S1024x256 ![0, 1] bcast_S1x256_S1024x256_0_1 (broadcastInDim S1x256 ![1] bcast_S256_S1x256_1 (shapeCast _ (extractStridedSlice S256x1 ![0, 0] (res_main_v115 V0) slices_S256x3_S256x1_0_0) shapeCasts_S256x1_S256))))) (mulf (concatenate S1024x256 1 [⟨S1024x128, (res_main_v162 V0)⟩, ⟨S1024x128, (subf (res_main_v103 V0) (res_main_v162 V0))⟩] concatenates_S1024x128_S1024x128_S1024x256_d1) (broadcastInDim S1024x256 ![0, 1] bcast_S1x256_S1024x256_0_1 (broadcastInDim S1x256 ![1] bcast_S256_S1x256_1 (shapeCast _ (extractStridedSlice S256x1 ![0, 1] (res_main_v115 V0) slices_S256x3_S256x1_0_1) shapeCasts_S256x1_S256))))) (mulf (concatenate S1024x256 1 [⟨S1024x128, (res_main_v189 V0)⟩, ⟨S1024x128, (subf (res_main_v103 V0) (res_main_v189 V0))⟩] concatenates_S1024x128_S1024x128_S1024x256_d1) (broadcastInDim S1024x256 ![0, 1] bcast_S1x256_S1024x256_0_1 (broadcastInDim S1x256 ![1] bcast_S256_S1x256_1 (shapeCast _ (extractStridedSlice S256x1 ![0, 2] (res_main_v115 V0) slices_S256x3_S256x1_0_2) shapeCasts_S256x1_S256)))))⟩] concatenates_S1024x192_S1024x256_S1024x448_d1) ((V0 (Proc.devRef .tc main_arg4) : FVec Ideal S448x2 .f32))) (broadcastInDim S1024x2 ![0, 1] bcast_S1x2_S1024x2_0_1 (broadcastInDim S1x2 ![1] bcast_S2_S1x2_1 (Host.log (φ := .f32) ((V0 (Proc.devRef .tc main_arg5) : FVec Ideal S2 .f32))))) : FVec Ideal S1024x2 .f32)
    = headArr (layerArr (rfl : 128 + 128 = 256) (rfl : 192 + 256 = 448) (res_main_v102 V0) (res_main_v135 V0) (res_main_v162 V0) (res_main_v189 V0)
        (res_main_v103 V0) (res_main_v115 V0)) (V0 (Proc.devRef .tc main_arg4)) (V0 (Proc.devRef .tc main_arg5)) := by
  funext i
  obtain ⟨n, c, rfl⟩ : ∃ (n : Fin 1024) (c : Fin 2), i = ix2 n c := ⟨i 0, i 1, eq_ix2 i⟩
  rw [addf_apply, headArr_apply]
  refine congrArg₂ (· + ·) ?_ (weightRow_host_apply _ bcast_S2_S1x2_1 bcast_S1x2_S1024x2_0_1 n c)
  refine (Cert.PlainDot.dotGeneral_apply dot_S1024x448_S448x2_S1024x2_1_0_0_1_n_n rfl rfl (fun _ _ => rfl) (fun _ _ => rfl)
    (fun _ _ => rfl) (fun _ _ => rfl) none _ _ _ n c).trans ?_
  refine Finset.sum_congr rfl fun k _ => ?_
  refine congrArg (· * (V0 (Proc.devRef .tc main_arg4) : S448x2.Idx → EReal) (ix2 k c)) ?_
  rw [concat_cols_apply (rfl : 192 + 256 = 448), layerArr_apply]
  unfold layerAt
  by_cases hk : k.val < 192
  · rw [dif_pos hk, dif_pos hk]
  · rw [dif_neg hk, dif_neg hk]
    rw [fused_host_apply (rfl : 128 + 128 = 256)]
    rw [weightCol_apply 0 (by decide) _ slices_S256x3_S256x1_0_0 shapeCasts_S256x1_S256,
      weightCol_apply 1 (by decide) _ slices_S256x3_S256x1_0_1 shapeCasts_S256x1_S256,
      weightCol_apply 2 (by decide) _ slices_S256x3_S256x1_0_2 shapeCasts_S256x1_S256]
    rfl

end Cert.ReferenceIdeal.RefValue

end
-- ==== Proof.LibSoftmaxRows.lean ====
/-
  SOFTMAX OVER THE ROWS OF AN [A, n] MATRIX, TWO SPELLINGS, ONE ARRAY (at the ideal values).

  The vector-unit spelling takes each row's maximum by a multi-reduction over axis 1 (accumulator -∞), joins it with
  a splat of -∞, lays the resulting vector of A entries as a column (a shape cast [A] → [A, 1], then a broadcast
  [A, 1] → [A, n]), subtracts, exponentiates, sums each row by a multi-reduction (accumulator 0), lays the sums as a
  column the same way and divides. The host spelling does the same with a reduce from an initial scalar, a scalar
  broadcast in dimensions, the column laid by two broadcasts in dimensions ([A] → [A, 1] along axis 0, then
  [A, 1] → [A, n] along axes 0 and 1), and the host's exponential and quotient.

  Each pair of corresponding pieces is ONE array:
    * the two row maxima are the same fold of max over the row's coordinates from the same initial value
      (max is commutative and associative, so the order of the fold does not matter);
    * the two row sums are the same sum, because the host's initial value is 0 and 0 + x = x;
    * the two column layouts read entry p of the vector at (p, q);
    * the splat of a constant is the scalar constant broadcast in dimensions;
    * exponential and quotient are the same functions on the extended reals in both spellings.
  So the two softmax arrays are equal as functions on the index set, for every row count A and column count n; every
  shape relation is a hypothesis, so the statement applies to the shape facts of any program.
-/
import Idealize.ShloMosaic.Lib.KernelVsHost
import Idealize.ShloMosaic.Lib.IdealHost

noncomputable section

namespace Cert.SoftmaxRows

open Idealize.ShloMosaic Idealize.ShloMosaic.ValueIdx

/-! ## The column layout -/

section Column
variable {α : Type} {m n : Nat}

/-- Vector-unit spelling: a vector of m entries cast to an [m, 1] column and broadcast over n columns reads entry p
    at (p, q). -/
theorem broadcastTo_column_apply (x : (⟨1, ![m]⟩ : Shape).Idx → α)
    (h1 : (⟨1, ![m]⟩ : Shape).ShapeCasts ⟨2, ![m, 1]⟩) (hb : (⟨2, ![m, 1]⟩ : Shape).Broadcasts ⟨2, ![m, n]⟩)
    (p : Fin m) (q : Fin n) :
    broadcastTo ⟨2, ![m, n]⟩ (shapeCast ⟨2, ![m, 1]⟩ x h1) hb (ix2 p q) = x (ix1 p) := by
  have e1 := broadcastTo_apply (shapeCast ⟨2, ![m, 1]⟩ x h1) hb (ix2 p q) (ix2 p (0 : Fin 1)) (by
    intro a
    match a with
    | ⟨0, _⟩ =>
      show p.val = if m = 1 then 0 else p.val
      split
      · have := p.isLt; omega
      · rfl
    | ⟨1, _⟩ =>
      show (0 : ℕ) = if (1 : ℕ) = 1 then 0 else _
      simp)
  have e2 := shapeCast_apply x h1 (ix2 p (0 : Fin 1)) (ix1 p) (by
    rw [Shape.rowMajor_val_two, Shape.rowMajor_val_one]; show p.val = p.val * 1 + 0; omega)
  exact e1.trans e2

/-- Host spelling: a vector of m entries broadcast along axis 0 to an [m, 1] column and then along axes 0, 1 over n
    columns reads entry p at (p, q). -/
theorem broadcastInDim_column_apply (x : (⟨1, ![m]⟩ : Shape).Idx → α)
    (hd0 : (⟨1, ![m]⟩ : Shape).BroadcastsInDim ⟨2, ![m, 1]⟩ ![0])
    (hd01 : (⟨2, ![m, 1]⟩ : Shape).BroadcastsInDim ⟨2, ![m, n]⟩ ![0, 1]) (p : Fin m) (q : Fin n) :
    broadcastInDim ⟨2, ![m, n]⟩ ![0, 1] hd01 (broadcastInDim ⟨2, ![m, 1]⟩ ![0] hd0 x) (ix2 p q) = x (ix1 p) := by
  have e1 := broadcastInDim_apply ![0, 1] hd01 (broadcastInDim ⟨2, ![m, 1]⟩ ![0] hd0 x) (ix2 p q) (ix2 p (0 : Fin 1)) (by
    intro a
    match a with
    | ⟨0, _⟩ =>
      show p.val = if m = 1 then 0 else p.val
      split
      · have := p.isLt; omega
      · rfl
    | ⟨1, _⟩ =>
      show (0 : ℕ) = if (1 : ℕ) = 1 then 0 else _
      simp)
  have e2 := broadcastInDim_apply ![0] hd0 x (ix2 p (0 : Fin 1)) (ix1 p) (by
    intro a
    match a with
    | ⟨0, _⟩ =>
      show p.val = if m = 1 then 0 else p.val
      split
      · have := p.isLt; omega
      · rfl)
  exact e1.trans e2

/-- The two column layouts are one array. -/
theorem broadcastTo_column_eq_broadcastInDim (x : (⟨1, ![m]⟩ : Shape).Idx → α)
    (h1 : (⟨1, ![m]⟩ : Shape).ShapeCasts ⟨2, ![m, 1]⟩) (hb : (⟨2, ![m, 1]⟩ : Shape).Broadcasts ⟨2, ![m, n]⟩)
    (hd0 : (⟨1, ![m]⟩ : Shape).BroadcastsInDim ⟨2, ![m, 1]⟩ ![0])
    (hd01 : (⟨2, ![m, 1]⟩ : Shape).BroadcastsInDim ⟨2, ![m, n]⟩ ![0, 1]) :
    broadcastTo ⟨2, ![m, n]⟩ (shapeCast ⟨2, ![m, 1]⟩ x h1) hb
      = broadcastInDim ⟨2, ![m, n]⟩ ![0, 1] hd01 (broadcastInDim ⟨2, ![m, 1]⟩ ![0] hd0 x) := by
  funext i
  obtain ⟨p, q, rfl⟩ : ∃ (p : Fin m) (q : Fin n), i = ix2 p q := ⟨i 0, i 1, eq_ix2 i⟩
  exact (broadcastTo_column_apply x h1 hb p q).trans (broadcastInDim_column_apply x hd0 hd01 p q).symm

end Column

/-! ## The reductions and the elementwise operations -/

section Pieces
variable {s t u : Shape} {φ : FTy}

/-- A multi-reduction by maximum over one axis from the accumulator pattern is the host's reduce by maximum from the
    scalar constant of the same pattern: both are the fold of max over that axis's coordinates from the pattern's
    value. -/
theorem multiReduction_maximumf_eq_hostReduce {a : Fin s.rank} (src : FVec Ideal s φ) (acc : BitVec φ.bits)
    (h : s.Reduces [a] t) (hφ : FKind.Formats φ) (hacc : acc = FKind.maximumf.neutral φ hφ)
    (h' : s.ReducesTo [a] t) (hu : 0 < u.numel) :
    multiReduction .maximumf [a] t src acc h hφ hacc
      = Host.reduce FloatOps.maximumf src (constant (F := Ideal) u φ acc) h' hu := by
  funext j
  rw [Ideal.multiReduction_maximumf_single src acc h hφ hacc j,
    Host.reduce_eq_fold_single FloatOps.maximumf src (constant (F := Ideal) u φ acc) h' h hu j]
  rfl

/-- The vector unit's exponential is the host's, at every element. -/
theorem exp_eq_hostExp (x : FVec Ideal s φ) : exp x = Host.exp x := rfl

/-- The vector unit's quotient is the host's, at every element. -/
theorem divf_eq_hostDivf (x y : FVec Ideal s φ) : divf x y = Host.divf x y := rfl

end Pieces

/-! ## The softmax -/

/-- Softmax over the rows of an [A, n] matrix: the vector-unit spelling is the host spelling, as arrays. -/
theorem softmaxRows_eq {A n : Nat} (v : FVec Ideal ⟨2, ![A, n]⟩ .f32)
    (hr : (⟨2, ![A, n]⟩ : Shape).Reduces [1] ⟨1, ![A]⟩)
    (hsc : (⟨1, ![A]⟩ : Shape).ShapeCasts ⟨2, ![A, 1]⟩)
    (hb : (⟨2, ![A, 1]⟩ : Shape).Broadcasts ⟨2, ![A, n]⟩)
    (hr' : (⟨2, ![A, n]⟩ : Shape).ReducesTo [1] ⟨1, ![A]⟩)
    (hu : 0 < (⟨0, ![]⟩ : Shape).numel)
    (hs : (⟨0, ![]⟩ : Shape).BroadcastsInDim ⟨1, ![A]⟩ ![])
    (hd0 : (⟨1, ![A]⟩ : Shape).BroadcastsInDim ⟨2, ![A, 1]⟩ ![0])
    (hd01 : (⟨2, ![A, 1]⟩ : Shape).BroadcastsInDim ⟨2, ![A, n]⟩ ![0, 1]) :
    divf
        (exp (subf v (broadcastTo ⟨2, ![A, n]⟩ (shapeCast ⟨2, ![A, 1]⟩
          (maximumf (broadcast ⟨1, ![A]⟩ (Scalar.ofBits (F := Ideal) .f32 0xFF800000#32))
            (multiReduction .maximumf [1] ⟨1, ![A]⟩ v 0xFF800000#32 hr (.inl rfl) rfl)) hsc) hb)))
        (broadcastTo ⟨2, ![A, n]⟩ (shapeCast ⟨2, ![A, 1]⟩
          (multiReduction .add [1] ⟨1, ![A]⟩
            (exp (subf v (broadcastTo ⟨2, ![A, n]⟩ (shapeCast ⟨2, ![A, 1]⟩
              (maximumf (broadcast ⟨1, ![A]⟩ (Scalar.ofBits (F := Ideal) .f32 0xFF800000#32))
                (multiReduction .maximumf [1] ⟨1, ![A]⟩ v 0xFF800000#32 hr (.inl rfl) rfl)) hsc) hb)))
            0x00000000#32 hr (.inl rfl) rfl) hsc) hb)
      = Host.divf
        (Host.exp (subf v (broadcastInDim ⟨2, ![A, n]⟩ ![0, 1] hd01 (broadcastInDim ⟨2, ![A, 1]⟩ ![0] hd0
          (maximumf (broadcastInDim ⟨1, ![A]⟩ ![] hs (constant (F := Ideal) ⟨0, ![]⟩ .f32 0xFF800000#32))
            (Host.reduce FloatOps.maximumf v (constant (F := Ideal) ⟨0, ![]⟩ .f32 0xFF800000#32) hr' hu))))))
        (broadcastInDim ⟨2, ![A, n]⟩ ![0, 1] hd01 (broadcastInDim ⟨2, ![A, 1]⟩ ![0] hd0
          (Host.reduceAdd
            (Host.exp (subf v (broadcastInDim ⟨2, ![A, n]⟩ ![0, 1] hd01 (broadcastInDim ⟨2, ![A, 1]⟩ ![0] hd0
              (maximumf (broadcastInDim ⟨1, ![A]⟩ ![] hs (constant (F := Ideal) ⟨0, ![]⟩ .f32 0xFF800000#32))
                (Host.reduce FloatOps.maximumf v (constant (F := Ideal) ⟨0, ![]⟩ .f32 0xFF800000#32) hr' hu))))))
            (constant (F := Ideal) ⟨0, ![]⟩ .f32 0x00000000#32) hr' hu))) := by
  rw [multiReduction_maximumf_eq_hostReduce v 0xFF800000#32 hr (.inl rfl) rfl hr' hu,
    ← broadcastInDim_constant (F := Ideal) (s := ⟨0, ![]⟩) (t := ⟨1, ![A]⟩) (φ := .f32) ![] hs 0xFF800000#32,
    broadcastTo_column_eq_broadcastInDim _ hsc hb hd0 hd01,
    exp_eq_hostExp,
    multiReduction_add_eq_hostReduceAdd _ 0x00000000#32 hr (.inl rfl) rfl
      (constant (F := Ideal) ⟨0, ![]⟩ .f32 0x00000000#32) hr' hu Ideal.ofBits_zero_f32,
    broadcastTo_column_eq_broadcastInDim _ hsc hb hd0 hd01,
    divf_eq_hostDivf]

end Cert.SoftmaxRows
-- ==== Proof.SoftmaxUse.lean ====
/- The softmax-over-rows lemma applied to the two programs' own shape facts, at 128 and at 256 rows. -/
import proofs.«177839_j28630251995136_1_alg».proof.KernelIdeal
import proofs.«177839_j28630251995136_1_alg».proof.ReferenceIdeal
import proofs.«177839_j28630251995136_1_alg».proof.Proof.LibSoftmaxRows

noncomputable section

namespace Cert.SoftmaxUse

open Idealize.ShloMosaic

variable [hKernelIdeal : Cert.KernelIdeal.Facts] [hReferenceIdeal : Cert.ReferenceIdeal.Facts]

/-- The softmax over the rows of the [128, 3] matrix: the kernel's term is the reference's. -/
theorem sm128_eq (a : FVec Ideal Cert.KernelIdeal.S128x3 .f32) :
    divf
        (exp (subf a (broadcastTo Cert.KernelIdeal.S128x3 (shapeCast Cert.KernelIdeal.S128x1
          (maximumf (broadcast Cert.KernelIdeal.S128 (Scalar.ofBits .f32 0xFF800000#32))
            (multiReduction .maximumf [1] Cert.KernelIdeal.S128 a 0xFF800000#32
              Cert.KernelIdeal.Facts₀.reduces_S128x3_S128 (.inl rfl) rfl))
          Cert.KernelIdeal.Facts₀.shapeCasts_S128_S128x1) Cert.KernelIdeal.Facts₀.broadcasts_S128x1_S128x3)))
        (broadcastTo Cert.KernelIdeal.S128x3 (shapeCast Cert.KernelIdeal.S128x1
          (multiReduction .add [1] Cert.KernelIdeal.S128
            (exp (subf a (broadcastTo Cert.KernelIdeal.S128x3 (shapeCast Cert.KernelIdeal.S128x1
              (maximumf (broadcast Cert.KernelIdeal.S128 (Scalar.ofBits .f32 0xFF800000#32))
                (multiReduction .maximumf [1] Cert.KernelIdeal.S128 a 0xFF800000#32
                  Cert.KernelIdeal.Facts₀.reduces_S128x3_S128 (.inl rfl) rfl))
              Cert.KernelIdeal.Facts₀.shapeCasts_S128_S128x1) Cert.KernelIdeal.Facts₀.broadcasts_S128x1_S128x3)))
            0x00000000#32 Cert.KernelIdeal.Facts₀.reduces_S128x3_S128 (.inl rfl) rfl)
          Cert.KernelIdeal.Facts₀.shapeCasts_S128_S128x1) Cert.KernelIdeal.Facts₀.broadcasts_S128x1_S128x3)
      = Host.divf
        (Host.exp (subf a (broadcastInDim Cert.ReferenceIdeal.S128x3 ![0, 1] Cert.ReferenceIdeal.Facts₀.bcast_S128x1_S128x3_0_1
          (broadcastInDim Cert.ReferenceIdeal.S128x1 ![0] Cert.ReferenceIdeal.Facts₀.bcast_S128_S128x1_0
            (maximumf (broadcastInDim Cert.ReferenceIdeal.S128 ![] Cert.ReferenceIdeal.Facts₀.bcast_S_S128
                (constant Cert.ReferenceIdeal.S_ .f32 0xFF800000#32))
              (Host.reduce FloatOps.maximumf a (constant Cert.ReferenceIdeal.S_ .f32 0xFF800000#32)
                Cert.ReferenceIdeal.Facts₀.reducesTo_S128x3_S128_d1 Cert.ReferenceIdeal.Facts₀.h_S_))))))
        (broadcastInDim Cert.ReferenceIdeal.S128x3 ![0, 1] Cert.ReferenceIdeal.Facts₀.bcast_S128x1_S128x3_0_1
          (broadcastInDim Cert.ReferenceIdeal.S128x1 ![0] Cert.ReferenceIdeal.Facts₀.bcast_S128_S128x1_0
            (Host.reduceAdd
              (Host.exp (subf a (broadcastInDim Cert.ReferenceIdeal.S128x3 ![0, 1] Cert.ReferenceIdeal.Facts₀.bcast_S128x1_S128x3_0_1
                (broadcastInDim Cert.ReferenceIdeal.S128x1 ![0] Cert.ReferenceIdeal.Facts₀.bcast_S128_S128x1_0
                  (maximumf (broadcastInDim Cert.ReferenceIdeal.S128 ![] Cert.ReferenceIdeal.Facts₀.bcast_S_S128
                      (constant Cert.ReferenceIdeal.S_ .f32 0xFF800000#32))
                    (Host.reduce FloatOps.maximumf a (constant Cert.ReferenceIdeal.S_ .f32 0xFF800000#32)
                      Cert.ReferenceIdeal.Facts₀.reducesTo_S128x3_S128_d1 Cert.ReferenceIdeal.Facts₀.h_S_))))))
              (constant Cert.ReferenceIdeal.S_ .f32 0x00000000#32)
              Cert.ReferenceIdeal.Facts₀.reducesTo_S128x3_S128_d1 Cert.ReferenceIdeal.Facts₀.h_S_))) :=
  Cert.SoftmaxRows.softmaxRows_eq a Cert.KernelIdeal.Facts₀.reduces_S128x3_S128
    Cert.KernelIdeal.Facts₀.shapeCasts_S128_S128x1 Cert.KernelIdeal.Facts₀.broadcasts_S128x1_S128x3
    Cert.ReferenceIdeal.Facts₀.reducesTo_S128x3_S128_d1 Cert.ReferenceIdeal.Facts₀.h_S_
    Cert.ReferenceIdeal.Facts₀.bcast_S_S128 Cert.ReferenceIdeal.Facts₀.bcast_S128_S128x1_0
    Cert.ReferenceIdeal.Facts₀.bcast_S128x1_S128x3_0_1

/-- The softmax over the rows of the [256, 3] matrix: the kernel's term is the reference's. -/
theorem sm256_eq (a : FVec Ideal Cert.KernelIdeal.S256x3 .f32) :
    divf
        (exp (subf a (broadcastTo Cert.KernelIdeal.S256x3 (shapeCast Cert.KernelIdeal.S256x1
          (maximumf (broadcast Cert.KernelIdeal.S256 (Scalar.ofBits .f32 0xFF800000#32))
            (multiReduction .maximumf [1] Cert.KernelIdeal.S256 a 0xFF800000#32
              Cert.KernelIdeal.Facts₀.reduces_S256x3_S256 (.inl rfl) rfl))
          Cert.KernelIdeal.Facts₀.shapeCasts_S256_S256x1) Cert.KernelIdeal.Facts₀.broadcasts_S256x1_S256x3)))
        (broadcastTo Cert.KernelIdeal.S256x3 (shapeCast Cert.KernelIdeal.S256x1
          (multiReduction .add [1] Cert.KernelIdeal.S256
            (exp (subf a (broadcastTo Cert.KernelIdeal.S256x3 (shapeCast Cert.KernelIdeal.S256x1
              (maximumf (broadcast Cert.KernelIdeal.S256 (Scalar.ofBits .f32 0xFF800000#32))
                (multiReduction .maximumf [1] Cert.KernelIdeal.S256 a 0xFF800000#32
                  Cert.KernelIdeal.Facts₀.reduces_S256x3_S256 (.inl rfl) rfl))
              Cert.KernelIdeal.Facts₀.shapeCasts_S256_S256x1) Cert.KernelIdeal.Facts₀.broadcasts_S256x1_S256x3)))
            0x00000000#32 Cert.KernelIdeal.Facts₀.reduces_S256x3_S256 (.inl rfl) rfl)
          Cert.KernelIdeal.Facts₀.shapeCasts_S256_S256x1) Cert.KernelIdeal.Facts₀.broadcasts_S256x1_S256x3)
      = Host.divf
        (Host.exp (subf a (broadcastInDim Cert.ReferenceIdeal.S256x3 ![0, 1] Cert.ReferenceIdeal.Facts₀.bcast_S256x1_S256x3_0_1
          (broadcastInDim Cert.ReferenceIdeal.S256x1 ![0] Cert.ReferenceIdeal.Facts₀.bcast_S256_S256x1_0
            (maximumf (broadcastInDim Cert.ReferenceIdeal.S256 ![] Cert.ReferenceIdeal.Facts₀.bcast_S_S256
                (constant Cert.ReferenceIdeal.S_ .f32 0xFF800000#32))
              (Host.reduce FloatOps.maximumf a (constant Cert.ReferenceIdeal.S_ .f32 0xFF800000#32)
                Cert.ReferenceIdeal.Facts₀.reducesTo_S256x3_S256_d1 Cert.ReferenceIdeal.Facts₀.h_S_))))))
        (broadcastInDim Cert.ReferenceIdeal.S256x3 ![0, 1] Cert.ReferenceIdeal.Facts₀.bcast_S256x1_S256x3_0_1
          (broadcastInDim Cert.ReferenceIdeal.S256x1 ![0] Cert.ReferenceIdeal.Facts₀.bcast_S256_S256x1_0
            (Host.reduceAdd
              (Host.exp (subf a (broadcastInDim Cert.ReferenceIdeal.S256x3 ![0, 1] Cert.ReferenceIdeal.Facts₀.bcast_S256x1_S256x3_0_1
                (broadcastInDim Cert.ReferenceIdeal.S256x1 ![0] Cert.ReferenceIdeal.Facts₀.bcast_S256_S256x1_0
                  (maximumf (broadcastInDim Cert.ReferenceIdeal.S256 ![] Cert.ReferenceIdeal.Facts₀.bcast_S_S256
                      (constant Cert.ReferenceIdeal.S_ .f32 0xFF800000#32))
                    (Host.reduce FloatOps.maximumf a (constant Cert.ReferenceIdeal.S_ .f32 0xFF800000#32)
                      Cert.ReferenceIdeal.Facts₀.reducesTo_S256x3_S256_d1 Cert.ReferenceIdeal.Facts₀.h_S_))))))
              (constant Cert.ReferenceIdeal.S_ .f32 0x00000000#32)
              Cert.ReferenceIdeal.Facts₀.reducesTo_S256x3_S256_d1 Cert.ReferenceIdeal.Facts₀.h_S_))) :=
  Cert.SoftmaxRows.softmaxRows_eq a Cert.KernelIdeal.Facts₀.reduces_S256x3_S256
    Cert.KernelIdeal.Facts₀.shapeCasts_S256_S256x1 Cert.KernelIdeal.Facts₀.broadcasts_S256x1_S256x3
    Cert.ReferenceIdeal.Facts₀.reducesTo_S256x3_S256_d1 Cert.ReferenceIdeal.Facts₀.h_S_
    Cert.ReferenceIdeal.Facts₀.bcast_S_S256 Cert.ReferenceIdeal.Facts₀.bcast_S256_S256x1_0
    Cert.ReferenceIdeal.Facts₀.bcast_S256x1_S256x3_0_1

end Cert.SoftmaxUse

end
-- ==== Proof.RefOut.lean ====
/-
  The reference's result as the same output function of the argument arrays.

  Each named intermediate of the reference is rewritten to the function the kernel program's segments compute of the
  same arrays: the layer-0 product, the relations' tables (the identity gather dropped), the neighbour means, the two
  softmax weight matrices (the host spelling equals the vector spelling), the layer-1 array, the batch rows, the tails
  and the layer-2 means. What remains is the head function of those arrays, which is the output function.
-/
import proofs.«177839_j28630251995136_1_alg».proof.Proof.RefChains
import proofs.«177839_j28630251995136_1_alg».proof.Proof.RefLayers
import proofs.«177839_j28630251995136_1_alg».proof.Proof.SoftmaxUse
import proofs.«177839_j28630251995136_1_alg».proof.Proof.Out

set_option maxRecDepth 8192

noncomputable section

open Idealize.ShloMosaic Idealize.ShloMosaic.TcCoe Idealize.SL.Sem Idealize.ShloMosaic.StableHlo Idealize.ShloMosaic.ValueIdx

namespace Cert.ReferenceIdeal.RefValue

open Cert.ReferenceIdeal Cert.ReferenceIdeal.Gen Cert.ReferenceIdeal.Value
open Cert.KernelIdeal.Out (h0Of h1Of headOf outOf)
open Cert.Spec

variable (V0 : Valuation τ sig (Elt Ideal))

/-- The layer-1 softmax weights: the host spelling is the vector spelling. -/
theorem r_v12 : res_main_v12 V0 = Cert.KernelIdeal.Region1.smK (V0 (Proc.devRef .tc main_arg2)) := (Cert.SoftmaxUse.sm128_eq _).symm
/-- The layer-2 softmax weights. -/
theorem r_v115 : res_main_v115 V0 = Cert.KernelIdeal.Gen.k2_pay2 (F := Ideal) (V0 (Proc.devRef .tc main_arg3)) := (Cert.SoftmaxUse.sm256_eq _).symm

/-- Layer 0. -/
theorem r_h0 : res_main_v0 V0 = h0Of (V0 (Proc.devRef .tc main_arg0)) (V0 (Proc.devRef .tc main_arg1)) := r_v0 V0

/-- Layer 1. -/
theorem r_h1 : res_main_v95 V0 = h1Of (V0 (Proc.devRef .tc main_arg0)) (V0 (Proc.devRef .tc main_arg1)) (V0 (Proc.devRef .tc main_arg2)) (V0 (Proc.devRef .tc main_arg6)) := by
  rw [r_v95, r_v32, r_v59, r_v86, r_v22, r_v49, r_v76, r_v12, r_h0]
  rfl

/-- The result. -/
theorem r_final : (addf (Host.dotGeneral (φ₂ := .f32) dot_S1024x448_S448x2_S1024x2_1_0_0_1_n_n none (concatenate S1024x448 1 [⟨S1024x192, (res_main_v102 V0)⟩, ⟨S1024x256, (addf (addf (addf (broadcastInDim S1024x256 ![] bcast_S_S1024x256 (constant S_ .f32 0x00000000#32)) (mulf (concatenate S1024x256 1 [⟨S1024x128, (res_main_v135 V0)⟩, ⟨S1024x128, (subf (res_main_v103 V0) (res_main_v135 V0))⟩] concatenates_S1024x128_S1024x128_S1024x256_d1) (broadcastInDim S1024x256 ![0, 1] bcast_S1x256_S1024x256_0_1 (broadcastInDim S1x256 ![1] bcast_S256_S1x256_1 (shapeCast _ (extractStridedSlice S256x1 ![0, 0] (res_main_v115 V0) slices_S256x3_S256x1_0_0) shapeCasts_S256x1_S256))))) (mulf (concatenate S1024x256 1 [⟨S1024x128, (res_main_v162 V0)⟩, ⟨S1024x128, (subf (res_main_v103 V0) (res_main_v162 V0))⟩] concatenates_S1024x128_S1024x128_S1024x256_d1) (broadcastInDim S1024x256 ![0, 1] bcast_S1x256_S1024x256_0_1 (broadcastInDim S1x256 ![1] bcast_S256_S1x256_1 (shapeCast _ (extractStridedSlice S256x1 ![0, 1] (res_main_v115 V0) slices_S256x3_S256x1_0_1) shapeCasts_S256x1_S256))))) (mulf (concatenate S1024x256 1 [⟨S1024x128, (res_main_v189 V0)⟩, ⟨S1024x128, (subf (res_main_v103 V0) (res_main_v189 V0))⟩] concatenates_S1024x128_S1024x128_S1024x256_d1) (broadcastInDim S1024x256 ![0, 1] bcast_S1x256_S1024x256_0_1 (broadcastInDim S1x256 ![1] bcast_S256_S1x256_1 (shapeCast _ (extractStridedSlice S256x1 ![0, 2] (res_main_v115 V0) slices_S256x3_S256x1_0_2) shapeCasts_S256x1_S256)))))⟩] concatenates_S1024x192_S1024x256_S1024x448_d1) ((V0 (Proc.devRef .tc main_arg4) : FVec Ideal S448x2 .f32))) (broadcastInDim S1024x2 ![0, 1] bcast_S1x2_S1024x2_0_1 (broadcastInDim S1x2 ![1] bcast_S2_S1x2_1 (Host.log (φ := .f32) ((V0 (Proc.devRef .tc main_arg5) : FVec Ideal S2 .f32))))) : FVec Ideal S1024x2 .f32)
    = outOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [r_out, r_v135, r_v162, r_v189, r_v103, r_v104, r_v125, r_v152, r_v179, r_v102, r_v115, r_h1]
  rfl

end Cert.ReferenceIdeal.RefValue

end
-- ==== Proof.lean ====
/-
  The certificate: a three-layer relation-aware graph network — a dense projection, two relation-fusion layers over
  gathered neighbour means, and a linear head with a log prior — computed by three blocked kernel launches among host
  gathers, against the same network written with whole-array host operations.

  On the extended reals both programs compute one function of the eight argument arrays. The kernel program's launches
  work block of rows by block of rows; each output row depends only on the same row of the launch's inputs, and the
  blocks tile the outputs, so each launch leaves the whole-array layer function of what it was entered with. Matrix
  products into a zero accumulator and the host's contraction are the same plain sums; a change of float format is the
  identity; the softmax in its vector spelling and in its host spelling is one array; the reference's extra gather of
  each relation's table by the identity index returns the table. The host gathers, tails and means between the
  launches are spelt alike in both programs and are carried as the same functions of equal arrays. No law of
  arithmetic beyond the order-free finite sum of a contraction is used, so the precondition is never opened.
  The three frames are the generated launch certificates and the reference's generated run; the idealization rewrote
  nothing, so what it has to preserve is trivially true.
-/
import proofs.«177839_j28630251995136_1_alg».proof.Defs
import proofs.«177839_j28630251995136_1_alg».proof.Proof.Gen.Kernel
import proofs.«177839_j28630251995136_1_alg».proof.Proof.Gen.Kernel.Frame
import proofs.«177839_j28630251995136_1_alg».proof.Proof.Gen.KernelIdeal
import proofs.«177839_j28630251995136_1_alg».proof.Proof.Gen.KernelIdeal.Frame
import proofs.«177839_j28630251995136_1_alg».proof.Proof.Gen.ReferenceIdeal
import proofs.«177839_j28630251995136_1_alg».proof.Proof.Gen.Pre_finite_inputs
import proofs.«177839_j28630251995136_1_alg».proof.Proof.Gen.ReferenceIdeal.Run
import proofs.«177839_j28630251995136_1_alg».proof.Proof.KValue
import proofs.«177839_j28630251995136_1_alg».proof.Proof.RefOut
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The output function of equal arrays. -/
theorem outOf_congr {x0 y0 : Cert.KernelIdeal.Chains.CF Cert.KernelIdeal.S50000x25} {x1 y1 : Cert.KernelIdeal.Chains.CF Cert.KernelIdeal.S25x64}
    {x2 y2 : Cert.KernelIdeal.Chains.CF Cert.KernelIdeal.S128x3} {x3 y3 : Cert.KernelIdeal.Chains.CF Cert.KernelIdeal.S256x3}
    {x4 y4 : Cert.KernelIdeal.Chains.CF Cert.KernelIdeal.S448x2} {x5 y5 : Cert.KernelIdeal.Chains.CF Cert.KernelIdeal.S2}
    {x6 y6 : Cert.KernelIdeal.Chains.CI Cert.KernelIdeal.S3x50000x32} {x7 y7 : Cert.KernelIdeal.Chains.CI Cert.KernelIdeal.S1024}
    (h0 : x0 = y0) (h1 : x1 = y1) (h2 : x2 = y2) (h3 : x3 = y3) (h4 : x4 = y4) (h5 : x5 = y5) (h6 : x6 = y6) (h7 : x7 = y7) :
    Cert.KernelIdeal.Out.outOf x0 x1 x2 x3 x4 x5 x6 x7 = Cert.KernelIdeal.Out.outOf y0 y1 y2 y3 y4 y5 y6 y7 := by
  subst h0 h1 h2 h3 h4 h5 h6 h7
  rfl

/-- Both idealized programs end with the output function of the (agreeing) argument arrays in their result buffers. -/
theorem algebraic : Cert.algebraic_KernelIdeal_ReferenceIdeal := by
  intro m ρ m' ρ' _ hagree
  refine ⟨fun c => Cert.KernelIdeal.Out.outOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.r_final (launchContents m' c)).trans ?_
  obtain ⟨a0, a1, a2, a3, a4, a5, a6, a7⟩ := hagree c
  exact outOf_congr a0 a1 a2 a3 a4 a5 a6 a7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
